-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x19x512x1024 : Shape := ⟨4, ![2, 19, 512, 1024]⟩
abbrev S19 : Shape := ⟨1, ![19]⟩
abbrev S2x512x1024 : Shape := ⟨3, ![2, 512, 1024]⟩
abbrev S_ : Shape := ⟨0, ![]⟩

class Facts : Prop where
  bcast_S_S2x19x512x1024 : S_.BroadcastsInDim S2x19x512x1024 (![] : Fin 0 → Fin S2x19x512x1024.rank)
  reducesTo_S2x19x512x1024_S_d0_1_2_3 : S2x19x512x1024.ReducesTo [0, 1, 2, 3] S_
  h_S_ : 0 < S_.numel
  bcast_S_S19 : S_.BroadcastsInDim S19 (![] : Fin 0 → Fin S19.rank)
  reducesTo_S19_S_d0 : S19.ReducesTo [0] S_

variable [Facts]

def fn {F : FTy → Type} [FloatOps F] (main_arg0 : FVec F S2x19x512x1024 .f32) (main_arg1 : FVec F S19 .f32) (main_arg2 : IVec S2x512x1024 32) : IVec S_ 1 :=
  let main_v0 : FVec F S2x19x512x1024 .f32 := Host.absf main_arg0
  let main_cst : FVec F S_ .f32 := constant S_ .f32 0x7F800000#32
  let main_v1 : FVec F S2x19x512x1024 .f32 := broadcastInDim S2x19x512x1024 ![] bcast_S_S2x19x512x1024 main_cst
  let main_v2 : IVec S2x19x512x1024 1 := cmpf .olt main_v0 main_v1
  let main_c : IVec S_ 1 := constantI S_ 1 1#1
  let main_v3 : IVec S_ 1 := (fun x v => Host.reduce IntOp.andi x v reducesTo_S2x19x512x1024_S_d0_1_2_3 h_S_) main_v2 main_c
  let main_v4 : FVec F S19 .f32 := Host.absf main_arg1
  let main_cst_0 : FVec F S_ .f32 := constant S_ .f32 0x7F800000#32
  let main_v5 : FVec F S19 .f32 := broadcastInDim S19 ![] bcast_S_S19 main_cst_0
  let main_v6 : IVec S19 1 := cmpf .olt main_v4 main_v5
  let main_c_1 : IVec S_ 1 := constantI S_ 1 1#1
  let main_v7 : IVec S_ 1 := (fun x v => Host.reduce IntOp.andi x v reducesTo_S19_S_d0 h_S_) main_v6 main_c_1
  let main_v8 : IVec S_ 1 := andi main_v3 main_v7
  main_v8
-- ==== Kernel.lean ====
abbrev S2x19x512x1024 : Shape := ⟨4, ![2, 19, 512, 1024]⟩
abbrev S19 : Shape := ⟨1, ![19]⟩
abbrev S2x512x1024 : Shape := ⟨3, ![2, 512, 1024]⟩
abbrev S32x19x1x1 : Shape := ⟨4, ![32, 19, 1, 1]⟩
abbrev S32x1x1 : Shape := ⟨3, ![32, 1, 1]⟩
abbrev S2x19x16x1024 : Shape := ⟨4, ![2, 19, 16, 1024]⟩
abbrev S2x16x1024 : Shape := ⟨3, ![2, 16, 1024]⟩
abbrev S1x19x1x1 : Shape := ⟨4, ![1, 19, 1, 1]⟩
abbrev S1x1x1 : Shape := ⟨3, ![1, 1, 1]⟩
abbrev S2x1x16x1024 : Shape := ⟨4, ![2, 1, 16, 1024]⟩
abbrev S2x19x16 : Shape := ⟨3, ![2, 19, 16]⟩
abbrev S2x19x16x1 : Shape := ⟨4, ![2, 19, 16, 1]⟩
abbrev S19x16x1 : Shape := ⟨3, ![19, 16, 1]⟩
abbrev S19x1 : Shape := ⟨2, ![19, 1]⟩
abbrev S19x1x1 : Shape := ⟨3, ![19, 1, 1]⟩
abbrev S16x1024 : Shape := ⟨2, ![16, 1024]⟩
abbrev S16 : Shape := ⟨1, ![16]⟩
abbrev S16x1 : Shape := ⟨2, ![16, 1]⟩
abbrev S1 : Shape := ⟨1, ![1]⟩
abbrev S1x1 : Shape := ⟨2, ![1, 1]⟩
abbrev S_ : Shape := ⟨0, ![]⟩

abbrev nBuf : Space → Nat
  | .hbm => 28
  | .vmem => 11
  | .smem => 0
  | _ => 0

abbrev bufTy : (tb : Table) → Fin (tcTables nBuf tb) → BufTy
  | .hbm, ⟨0, _⟩ => ⟨S2x19x512x1024, .f32⟩
  | .hbm, ⟨1, _⟩ => ⟨S19, .f32⟩
  | .hbm, ⟨2, _⟩ => ⟨S2x512x1024, .i32⟩
  | .hbm, ⟨3, _⟩ => ⟨S19, .f32⟩
  | .hbm, ⟨4, _⟩ => ⟨S2x19x512x1024, .f32⟩
  | .hbm, ⟨5, _⟩ => ⟨S32x19x1x1, .f32⟩
  | .hbm, ⟨6, _⟩ => ⟨S32x1x1, .f32⟩
  | .hbm, ⟨7, _⟩ => ⟨S_, .f32⟩
  | .hbm, ⟨8, _⟩ => ⟨S19, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S19, .f32⟩
  | .hbm, ⟨14, _⟩ => ⟨S19, .f32⟩
  | .hbm, ⟨15, _⟩ => ⟨S_, .f32⟩
  | .hbm, ⟨16, _⟩ => ⟨S_, .f32⟩
  | .hbm, ⟨17, _⟩ => ⟨S19, .f32⟩
  | .hbm, ⟨18, _⟩ => ⟨S19, .f32⟩
  | .hbm, ⟨19, _⟩ => ⟨S19, .f32⟩
  | .hbm, ⟨20, _⟩ => ⟨S19, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S2x19x16x1024, .f32⟩
  | .local _ .vmem, ⟨1, _⟩ => ⟨S2x19x16x1024, .f32⟩
  | .local _ .vmem, ⟨2, _⟩ => ⟨S19, .f32⟩
  | .local _ .vmem, ⟨3, _⟩ => ⟨S2x16x1024, .i32⟩
  | .local _ .vmem, ⟨4, _⟩ => ⟨S2x16x1024, .i32⟩
  | .local _ .vmem, ⟨5, _⟩ => ⟨S2x19x16x1024, .f32⟩
  | .local _ .vmem, ⟨6, _⟩ => ⟨S2x19x16x1024, .f32⟩
  | .local _ .vmem, ⟨7, _⟩ => ⟨S1x19x1x1, .f32⟩
  | .local _ .vmem, ⟨8, _⟩ => ⟨S1x19x1x1, .f32⟩
  | .local _ .vmem, ⟨9, _⟩ => ⟨S1x1x1, .f32⟩
  | .local _ .vmem, ⟨10, _⟩ => ⟨S1x1x1, .f32⟩
  | _, _ => ⟨S2x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_cst_5 : Ref sig .tc := ⟨.hbm, 23, rfl⟩
abbrev main_v12 : Ref sig .tc := ⟨.hbm, 24, rfl⟩
abbrev main_cst_6 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x19x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S19 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x16x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x19x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x19x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2x19x16x1024_S2x19x16x1024_0_0_0_0 : ∀ a, (![0, 0, 0, 0] : Fin 4 → Nat) a + S2x19x16x1024.size a ≤ S2x19x16x1024.size a
  h_S2x19x16x1024 : 0 < S2x19x16x1024.numel
  reduces_S2x19x16x1024_S2x16x1024 : S2x19x16x1024.Reduces [1] S2x16x1024
  shapeCasts_S2x16x1024_S2x1x16x1024 : S2x16x1024.ShapeCasts S2x1x16x1024
  broadcasts_S2x1x16x1024_S2x19x16x1024 : S2x1x16x1024.Broadcasts S2x19x16x1024
  inb_S19_S19_0 : ∀ a, (![0] : Fin 1 → Nat) a + S19.size a ≤ S19.size a
  h_S19 : 0 < S19.numel
  shapeCasts_S19_S1x19x1x1 : S19.ShapeCasts S1x19x1x1
  broadcasts_S1x19x1x1_S2x19x16x1024 : S1x19x1x1.Broadcasts S2x19x16x1024
  natLt_1_32 : 1 < 32
  reduces_S2x19x16x1024_S2x19x16 : S2x19x16x1024.Reduces [3] S2x19x16
  shapeCasts_S2x19x16_S2x19x16x1 : S2x19x16.ShapeCasts S2x19x16x1
  reduces_S2x19x16x1_S19x16x1 : S2x19x16x1.Reduces [0] S19x16x1
  reduces_S19x16x1_S19x1 : S19x16x1.Reduces [1] S19x1
  shapeCasts_S19x1_S19x1x1 : S19x1.ShapeCasts S19x1x1
  shapeCasts_S19x1x1_S1x19x1x1 : S19x1x1.ShapeCasts S1x19x1x1
  inb_S1x19x1x1_S1x19x1x1_0_0_0_0 : ∀ a, (![0, 0, 0, 0] : Fin 4 → Nat) a + S1x19x1x1.size a ≤ S1x19x1x1.size a
  h_S1x19x1x1 : 0 < S1x19x1x1.numel
  inb_S2x16x1024_S2x16x1024_0_0_0 : ∀ a, (![0, 0, 0] : Fin 3 → Nat) a + S2x16x1024.size a ≤ S2x16x1024.size a
  h_S2x16x1024 : 0 < S2x16x1024.numel
  iota_S1x19x1x1_d1_w32 : S1x19x1x1.Iotas .tc 32 [1]
  reduces_S2x16x1024_S16x1024 : S2x16x1024.Reduces [0] S16x1024
  reduces_S16x1024_S16 : S16x1024.Reduces [1] S16
  shapeCasts_S16_S16x1 : S16.ShapeCasts S16x1
  reduces_S16x1_S1 : S16x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S32x19x1x1_S19_d0_2_3 : S32x19x1x1.ReducesTo [0, 2, 3] S19
  h_S_ : 0 < S_.numel
  reducesTo_S32x1x1_S_d0_1_2 : S32x1x1.ReducesTo [0, 1, 2] S_
  reducesTo_S19_S_d0 : S19.ReducesTo [0] S_
  bcast_S_S19 : S_.BroadcastsInDim S19 (![] : Fin 0 → Fin S19.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x19x16x1024.size a ≤ S2x19x512x1024.size a
  hwx0_0 : ∀ i : grid0.Coords, EltTy.bits .f32 = 32 ∨ (Rect.block (s := S2x19x512x1024) S2x19x16x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S19.size a ≤ S19.size a
  hwx0_1 : ∀ i : grid0.Coords, EltTy.bits .f32 = 32 ∨ (Rect.block (s := S19) S19.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x16x1024.size a ≤ S2x512x1024.size a
  hwx0_2 : ∀ i : grid0.Coords, EltTy.bits .i32 = 32 ∨ (Rect.block (s := S2x512x1024) S2x16x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x19x16x1024.size a ≤ S2x19x512x1024.size a
  hwx0_3 : ∀ i : grid0.Coords, EltTy.bits .f32 = 32 ∨ (Rect.block (s := S2x19x512x1024) S2x19x16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x19x1x1.size a ≤ S32x19x1x1.size a
  hwx0_4 : ∀ i : grid0.Coords, EltTy.bits .f32 = 32 ∨ (Rect.block (s := S32x19x1x1) S1x19x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S32x1x1.size a
  hwx0_5 : ∀ i : grid0.Coords, EltTy.bits .f32 = 32 ∨ (Rect.block (s := S32x1x1) S1x1x1.size (cc0_transform_5 i) (hinb0_5 i)).WholeWords (EltTy.packing .f32)

variable [Facts₀]

abbrev win0_0 : Pipeline.Window sig grid0 :=
  Pipeline.Window.ofSpec (Memref.whole main_arg0) S2x19x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S19.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2x19x16x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x19x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x19x512x1024 : Shape := ⟨4, ![2, 19, 512, 1024]⟩
abbrev S19 : Shape := ⟨1, ![19]⟩
abbrev S2x512x1024 : Shape := ⟨3, ![2, 512, 1024]⟩
abbrev S_ : Shape := ⟨0, ![]⟩
abbrev S2x1x512x1024 : Shape := ⟨4, ![2, 1, 512, 1024]⟩
abbrev S1x19x1x1 : Shape := ⟨4, ![1, 19, 1, 1]⟩
abbrev S2x512x1024x1 : Shape := ⟨4, ![2, 512, 1024, 1]⟩
abbrev S1x1x1x19 : Shape := ⟨4, ![1, 1, 1, 19]⟩
abbrev S2x512x1024x19 : Shape := ⟨4, ![2, 512, 1024, 19]⟩

abbrev nBuf : Space → Nat
  | .hbm => 68
  | .vmem => 0
  | .smem => 0
  | _ => 0

abbrev bufTy : (tb : Table) → Fin (tcTables nBuf tb) → BufTy
  | .hbm, ⟨0, _⟩ => ⟨S2x19x512x1024, .f32⟩
  | .hbm, ⟨1, _⟩ => ⟨S19, .f32⟩
  | .hbm, ⟨2, _⟩ => ⟨S2x512x1024, .i32⟩
  | .hbm, ⟨3, _⟩ => ⟨S19, .f32⟩
  | .hbm, ⟨4, _⟩ => ⟨S_, .f32⟩
  | .hbm, ⟨5, _⟩ => ⟨S_, .f32⟩
  | .hbm, ⟨6, _⟩ => ⟨S19, .f32⟩
  | .hbm, ⟨7, _⟩ => ⟨S19, .f32⟩
  | .hbm, ⟨8, _⟩ => ⟨S_, .f32⟩
  | .hbm, ⟨9, _⟩ => ⟨S2x512x1024, .f32⟩
  | .hbm, ⟨10, _⟩ => ⟨S_, .f32⟩
  | .hbm, ⟨11, _⟩ => ⟨S2x512x1024, .f32⟩
  | .hbm, ⟨12, _⟩ => ⟨S2x512x1024, .f32⟩
  | .hbm, ⟨13, _⟩ => ⟨S2x1x512x1024, .f32⟩
  | .hbm, ⟨14, _⟩ => ⟨S2x19x512x1024, .f32⟩
  | .hbm, ⟨15, _⟩ => ⟨S2x19x512x1024, .f32⟩
  | .hbm, ⟨16, _⟩ => ⟨S2x19x512x1024, .f32⟩
  | .hbm, ⟨17, _⟩ => ⟨S_, .f32⟩
  | .hbm, ⟨18, _⟩ => ⟨S2x512x1024, .f32⟩
  | .hbm, ⟨19, _⟩ => ⟨S2x1x512x1024, .f32⟩
  | .hbm, ⟨20, _⟩ => ⟨S2x19x512x1024, .f32⟩
  | .hbm, ⟨21, _⟩ => ⟨S2x19x512x1024, .f32⟩
  | .hbm, ⟨22, _⟩ => ⟨S1x19x1x1, .f32⟩
  | .hbm, ⟨23, _⟩ => ⟨S2x19x512x1024, .f32⟩
  | .hbm, ⟨24, _⟩ => ⟨S2x19x512x1024, .f32⟩
  | .hbm, ⟨25, _⟩ => ⟨S_, .f32⟩
  | .hbm, ⟨26, _⟩ => ⟨S2x512x1024, .f32⟩
  | .hbm, ⟨27, _⟩ => ⟨S2x1x512x1024, .f32⟩
  | .hbm, ⟨28, _⟩ => ⟨S2x19x512x1024, .f32⟩
  | .hbm, ⟨29, _⟩ => ⟨S2x19x512x1024, .f32⟩
  | .hbm, ⟨30, _⟩ => ⟨S_, .f32⟩
  | .hbm, ⟨31, _⟩ => ⟨S2x19x512x1024, .f32⟩
  | .hbm, ⟨32, _⟩ => ⟨S2x19x512x1024, .i1⟩
  | .hbm, ⟨33, _⟩ => ⟨S2x19x512x1024, .f32⟩
  | .hbm, ⟨34, _⟩ => ⟨S_, .f32⟩
  | .hbm, ⟨35, _⟩ => ⟨S19, .f32⟩
  | .hbm, ⟨36, _⟩ => ⟨S_, .f32⟩
  | .hbm, ⟨37, _⟩ => ⟨S_, .f32⟩
  | .hbm, ⟨38, _⟩ => ⟨S19, .f32⟩
  | .hbm, ⟨39, _⟩ => ⟨S19, .f32⟩
  | .hbm, ⟨40, _⟩ => ⟨S19, .f32⟩
  | .hbm, ⟨41, _⟩ => ⟨S19, .f32⟩
  | .hbm, ⟨42, _⟩ => ⟨S_, .f32⟩
  | .hbm, ⟨43, _⟩ => ⟨S_, .f32⟩
  | .hbm, ⟨44, _⟩ => ⟨S2x512x1024x1, .i32⟩
  | .hbm, ⟨45, _⟩ => ⟨S1x1x1x19, .i32⟩
  | .hbm, ⟨46, _⟩ => ⟨S2x512x1024x19, .i32⟩
  | .hbm, ⟨47, _⟩ => ⟨S2x512x1024x19, .i32⟩
  | .hbm, ⟨48, _⟩ => ⟨S2x512x1024x19, .i1⟩
  | .hbm, ⟨49, _⟩ => ⟨S2x512x1024x19, .f32⟩
  | .hbm, ⟨50, _⟩ => ⟨S2x19x512x1024, .f32⟩
  | .hbm, ⟨51, _⟩ => ⟨S2x19x512x1024, .f32⟩
  | .hbm, ⟨52, _⟩ => ⟨S2x19x512x1024, .f32⟩
  | .hbm, ⟨53, _⟩ => ⟨S_, .f32⟩
  | .hbm, ⟨54, _⟩ => ⟨S2x512x1024, .f32⟩
  | .hbm, ⟨55, _⟩ => ⟨S_, .i32⟩
  | .hbm, ⟨56, _⟩ => ⟨S2x512x1024, .i32⟩
  | .hbm, ⟨57, _⟩ => ⟨S2x512x1024, .i1⟩
  | .hbm, ⟨58, _⟩ => ⟨S_, .f32⟩
  | .hbm, ⟨59, _⟩ => ⟨S2x512x1024, .f32⟩
  | .hbm, ⟨60, _⟩ => ⟨S2x512x1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S2x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_c : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_call1_v0 : Ref sig .tc := ⟨.hbm, 59, rfl⟩
abbrev main_v38 : Ref sig .tc := ⟨.hbm, 60, rfl⟩
abbrev main_cst_11 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  reducesTo_S19_S_d0 : S19.ReducesTo [0] S_
  h_S_ : 0 < S_.numel
  bcast_S_S19 : S_.BroadcastsInDim S19 (![] : Fin 0 → Fin S19.rank)
  reducesTo_S2x19x512x1024_S2x512x1024_d1 : S2x19x512x1024.ReducesTo [1] S2x512x1024
  bcast_S_S2x512x1024 : S_.BroadcastsInDim S2x512x1024 (![] : Fin 0 → Fin S2x512x1024.rank)
  bcast_S2x512x1024_S2x1x512x1024_0_2_3 : S2x512x1024.BroadcastsInDim S2x1x512x1024 (![0, 2, 3] : Fin 3 → Fin S2x1x512x1024.rank)
  bcast_S2x1x512x1024_S2x19x512x1024_0_1_2_3 : S2x1x512x1024.BroadcastsInDim S2x19x512x1024 (![0, 1, 2, 3] : Fin 4 → Fin S2x19x512x1024.rank)
  bcast_S19_S1x19x1x1_1 : S19.BroadcastsInDim S1x19x1x1 (![1] : Fin 1 → Fin S1x19x1x1.rank)
  bcast_S1x19x1x1_S2x19x512x1024_0_1_2_3 : S1x19x1x1.BroadcastsInDim S2x19x512x1024 (![0, 1, 2, 3] : Fin 4 → Fin S2x19x512x1024.rank)
  bcast_S_S2x19x512x1024 : S_.BroadcastsInDim S2x19x512x1024 (![] : Fin 0 → Fin S2x19x512x1024.rank)
  reducesTo_S2x19x512x1024_S19_d0_2_3 : S2x19x512x1024.ReducesTo [0, 2, 3] S19
  bcast_S2x512x1024_S2x512x1024x1_0_1_2 : S2x512x1024.BroadcastsInDim S2x512x1024x1 (![0, 1, 2] : Fin 3 → Fin S2x512x1024x1.rank)
  bcast_S2x512x1024x1_S2x512x1024x19_0_1_2_3 : S2x512x1024x1.BroadcastsInDim S2x512x1024x19 (![0, 1, 2, 3] : Fin 4 → Fin S2x512x1024x19.rank)
  bcast_S1x1x1x19_S2x512x1024x19_0_1_2_3 : S1x1x1x19.BroadcastsInDim S2x512x1024x19 (![0, 1, 2, 3] : Fin 4 → Fin S2x512x1024x19.rank)
  transposes_S2x512x1024x19_S2x19x512x1024_0_3_1_2 : S2x512x1024x19.Transposes [0, 3, 1, 2] S2x19x512x1024
  reducesTo_S2x512x1024_S_d0_1_2 : S2x512x1024.ReducesTo [0, 1, 2] S_

variable [Facts₀]

class Facts : Prop extends Facts₀ where

variable [Facts]
-- ==== Proof.Spec.lean ====
/-
  The mathematics of the calibration loss, stated once over the extended reals, with no program in sight.

  A pixel is a pair (batch b, row h, column w); its nineteen class scores form a COLUMN `x : Fin 19 → EReal`.
  `wpCol x wt` is the pixel's reweighted, renormalised softmax: with `M` the largest score (the fold of `max`
  from −∞ over the classes), `e k = exp (x k − M)`, `p k = e k / ∑ e`, `q k = wt k · p k`, the result is
  `q k / ∑ q`. `ind a` is 1 when `a` exceeds the threshold 0.9 (as the f32 word denotes it) and 0 otherwise;
  `oneHot lab k` is 1 when the label word equals class `k`; `sePix p lab` is the squared distance of a pixel's
  column `p` from its one-hot column, and 0 for an ignored pixel (label 255).

  `lossTail prior size se` is the scalar both programs compute from the per-class counts `size`, the summed
  squared error `se` and the prior table: ∑ₖ (sizeₖ / ∑ size − priorₖ / ∑ prior)² + 0.05 · (se / 2²⁰).

  The one algebraic fact that joins the two programs is a regrouping of finite sums: rows 0 … 511 are the
  thirty-two tiles of sixteen rows, so a sum over the rows is the sum over the tiles of the sums over a tile's
  rows, and finite sums in a commutative monoid may be taken in any order of their index variables.
-/
import Idealize.ShloMosaic.PureOps.Ideal
import Idealize.ShloMosaic.PureOps.Ideal.Laws
import Idealize.ShloMosaic.PureOps.Vector
import Idealize.ShloMosaic.Lib.ValueIdx

noncomputable section

open scoped BigOperators

namespace Cert.Calib

open Idealize.ShloMosaic Idealize.ShloMosaic.ValueIdx

/-- The f32 words the programs share, as extended reals: −∞, the threshold 0.9 (as f32), zero. -/
abbrev negInf : EReal := Ideal.ofBits .f32 0xFF800000#32
abbrev thr : EReal := Ideal.ofBits .f32 0x3F666666#32
abbrev zero32 : EReal := Ideal.ofBits .f32 0x00000000#32

/-- The largest of a column's nineteen scores: the fold of `max` from −∞. -/
def colMax (x : Fin 19 → EReal) : EReal := (Finset.univ : Finset (Fin 19)).fold max negInf x

/-- `exp (xₖ − max x)`. -/
def expCol (x : Fin 19 → EReal) (k : Fin 19) : EReal := Ideal.exp (x k - colMax x)

/-- The softmax of a column. -/
def softCol (x : Fin 19 → EReal) (k : Fin 19) : EReal := Ideal.div (expCol x k) (∑ k' : Fin 19, expCol x k')

/-- The softmax reweighted class by class. -/
def wCol (x wt : Fin 19 → EReal) (k : Fin 19) : EReal := wt k * softCol x k

/-- … and renormalised to sum one. -/
def wpCol (x wt : Fin 19 → EReal) (k : Fin 19) : EReal := Ideal.div (wCol x wt k) (∑ k' : Fin 19, wCol x wt k')

/-- 1 when `a` exceeds the threshold, else 0 (the comparison's bit, widened and read as a signed integer). -/
def ind (a : EReal) : EReal := ((((Ideal.cmp .ogt a thr).setWidth 32).toInt : ℝ) : EReal)

/-- 1 when the label word is class `k`, else 0. -/
def oneHot (lab : BitVec 32) (k : Fin 19) : EReal :=
  ((((IntOp.cmpi .eq lab (BitVec.ofNat 32 k.val)).setWidth 32).toInt : ℝ) : EReal)

/-- A pixel's squared error against its one-hot column; zero for an ignored pixel (label 255). -/
def sePix (p : Fin 19 → EReal) (lab : BitVec 32) : EReal :=
  Scalar.select (IntOp.cmpi .eq lab 255#32) zero32 (∑ k : Fin 19, (p k - oneHot lab k) * (p k - oneHot lab k))

/-- The renormalised softmax of pixel (b, h, w) at class k, read off a [2, 19, H, 1024] array of scores and a [19]
    array of weights. Generic in the number of rows `H`: 512 for the whole array, 16 for one tile. -/
def wpAt {H : Nat} (x : (⟨4, ![2, 19, H, 1024]⟩ : Shape).Idx → EReal) (wt : (⟨1, ![19]⟩ : Shape).Idx → EReal)
    (b : Fin 2) (k : Fin 19) (h : Fin H) (w : Fin 1024) : EReal :=
  wpCol (fun k' => x (ix4 b k' h w)) (fun k' => wt (ix1 k')) k

/-- The whole [2, 19, 512, 1024] array of renormalised softmax values. -/
def wpArr (x : (⟨4, ![2, 19, 512, 1024]⟩ : Shape).Idx → EReal) (wt : (⟨1, ![19]⟩ : Shape).Idx → EReal) :
    (⟨4, ![2, 19, 512, 1024]⟩ : Shape).Idx → EReal := fun i => wpAt x wt (i 0) (i 1) (i 2) (i 3)

/-- Per class, how many pixels of the whole array exceed the threshold. -/
def sizeArr (x : (⟨4, ![2, 19, 512, 1024]⟩ : Shape).Idx → EReal) (wt : (⟨1, ![19]⟩ : Shape).Idx → EReal) :
    (⟨1, ![19]⟩ : Shape).Idx → EReal :=
  fun j => ∑ b : Fin 2, ∑ h : Fin 512, ∑ w : Fin 1024, ind (wpAt x wt b (j 0) h w)

/-- The squared error summed over every pixel of the whole array. -/
def seArr (x : (⟨4, ![2, 19, 512, 1024]⟩ : Shape).Idx → EReal) (wt : (⟨1, ![19]⟩ : Shape).Idx → EReal)
    (lab : (⟨3, ![2, 512, 1024]⟩ : Shape).Idx → BitVec 32) : (⟨0, ![]⟩ : Shape).Idx → EReal :=
  fun _ => ∑ b : Fin 2, ∑ h : Fin 512, ∑ w : Fin 1024, sePix (fun k => wpAt x wt b k h w) (lab (ix3 b h w))

/-- The scalar loss from the per-class counts, the summed squared error and the prior table, in the host
    operations both programs apply (the shape facts are arguments: each program states its own). -/
def lossTail (hr : (⟨1, ![19]⟩ : Shape).ReducesTo [0] ⟨0, ![]⟩) (hS : 0 < (⟨0, ![]⟩ : Shape).numel)
    (hb : (⟨0, ![]⟩ : Shape).BroadcastsInDim ⟨1, ![19]⟩ (![] : Fin 0 → Fin 1))
    (prior size : FVec Ideal ⟨1, ![19]⟩ .f32) (se : FVec Ideal ⟨0, ![]⟩ .f32) : FVec Ideal ⟨0, ![]⟩ .f32 :=
  let ratio (v : FVec Ideal ⟨1, ![19]⟩ .f32) : FVec Ideal ⟨1, ![19]⟩ .f32 :=
    Host.divf v (broadcastInDim ⟨1, ![19]⟩ ![] hb (Host.reduceAdd (F := Ideal) v (constant (F := Ideal) ⟨0, ![]⟩ .f32 0x00000000#32) hr hS))
  let d : FVec Ideal ⟨1, ![19]⟩ .f32 := subf (ratio size) (ratio prior)
  addf (Host.reduceAdd (F := Ideal) (mulf d d) (constant (F := Ideal) ⟨0, ![]⟩ .f32 0x00000000#32) hr hS)
    (mulf (constant (F := Ideal) ⟨0, ![]⟩ .f32 0x3D4CCCCD#32) (Host.divf se (constant (F := Ideal) ⟨0, ![]⟩ .f32 0x49800000#32)))

/-! ## Regrouping the rows into tiles -/

/-- Row `16·t + r` of the array is row `r` of tile `t`. -/
def rowOf (t : Fin 32) (r : Fin 16) : Fin 512 := ⟨16 * t.val + r.val, by have := t.isLt; have := r.isLt; omega⟩

/-- A sum over the 512 rows is the sum over the 32 tiles of the sums over a tile's 16 rows. -/
theorem sum_rows {M : Type*} [AddCommMonoid M] (g : Fin 512 → M) :
    ∑ h : Fin 512, g h = ∑ t : Fin 32, ∑ r : Fin 16, g (rowOf t r) := by
  have e : ∑ p : Fin 32 × Fin 16, g (rowOf p.1 p.2) = ∑ h : Fin 512, g h :=
    Fintype.sum_equiv (finProdFinEquiv (m := 32) (n := 16)) (fun p => g (rowOf p.1 p.2)) g
      (fun p => congrArg g (Fin.ext (by simp [rowOf, finProdFinEquiv, Nat.add_comm])))
  rw [← e, Fintype.sum_prod_type]

/-- The per-class count, tile by tile (rows, then batches, then columns inside a tile) against the whole array
    (batches, rows, columns). -/
theorem sum_tiles_size {M : Type*} [AddCommMonoid M] (f : Fin 2 → Fin 512 → Fin 1024 → M) :
    ∑ t : Fin 32, ∑ r : Fin 16, ∑ b : Fin 2, ∑ w : Fin 1024, f b (rowOf t r) w
      = ∑ b : Fin 2, ∑ h : Fin 512, ∑ w : Fin 1024, f b h w := by
  calc ∑ t : Fin 32, ∑ r : Fin 16, ∑ b : Fin 2, ∑ w : Fin 1024, f b (rowOf t r) w
      = ∑ t : Fin 32, ∑ b : Fin 2, ∑ r : Fin 16, ∑ w : Fin 1024, f b (rowOf t r) w :=
        Finset.sum_congr rfl fun t _ => Finset.sum_comm
    _ = ∑ b : Fin 2, ∑ t : Fin 32, ∑ r : Fin 16, ∑ w : Fin 1024, f b (rowOf t r) w := Finset.sum_comm
    _ = ∑ b : Fin 2, ∑ h : Fin 512, ∑ w : Fin 1024, f b h w :=
        Finset.sum_congr rfl fun b _ => (sum_rows (fun h => ∑ w : Fin 1024, f b h w)).symm

/-- The squared error, tile by tile (rows, then columns, then batches inside a tile) against the whole array. -/
theorem sum_tiles_se {M : Type*} [AddCommMonoid M] (f : Fin 2 → Fin 512 → Fin 1024 → M) :
    ∑ t : Fin 32, ∑ r : Fin 16, ∑ w : Fin 1024, ∑ b : Fin 2, f b (rowOf t r) w
      = ∑ b : Fin 2, ∑ h : Fin 512, ∑ w : Fin 1024, f b h w := by
  rw [← sum_tiles_size f]
  exact Finset.sum_congr rfl fun t _ => Finset.sum_congr rfl fun r _ => Finset.sum_comm

end Cert.Calib

end
-- ==== Proof.PayRead.lean ====
/-
  One tile of the kernel, read at an index. The tile's three stored values are pure functions of the tile's
  loaded blocks — the scores `x0` ([2, 19, 16, 1024]), the weights `x1` ([19]) and the labels `x2` ([2, 16, 1024]) —
  and each is read here at one index as the specification's expression of those blocks:
  the renormalised softmax at (b, k, r, w); the count of class `k` over the tile (rows, then batches, then
  columns, the order the tile sums them in); and the tile's squared error (rows, then columns, then batches).

  The elementwise operations read through at an index by definition. Each operation that moves or merges
  indices — a reduction over one axis, a cast between shapes of the same row-major size, a broadcast along unit
  axes, the class iota — is read once, at the literal shape it occurs at, over coordinates of literal ranges.
-/
import proofs.«123401_j48180943127204_2_alg».proof.Proof.Gen.KernelIdeal.Skeleton
import proofs.«123401_j48180943127204_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx Cert.Calib

/-! ## Reductions over the class axis, and what is kept of them -/

section ClassAxis
variable {α : Type}

/-- Class `k` inserted into (b, r, w) on axis 1 is (b, k, r, w). -/
theorem lift_cls (b : Fin 2) (r : Fin 16) (w : Fin 1024) (k : Fin 19) :
    reduces_S2x19x16x1024_S2x16x1024.lift (ix3 b r w) k = ix4 b k r w := by
  funext c
  match c with
  | ⟨0, _⟩ => rfl
  | ⟨1, _⟩ => rfl
  | ⟨2, _⟩ => rfl
  | ⟨3, _⟩ => rfl

/-- The maximum over the class axis, from −∞. -/
def maxCls (v : FVec Ideal S2x19x16x1024 .f32) : FVec Ideal S2x16x1024 .f32 :=
  multiReduction (F := Ideal) .maximumf [1] S2x16x1024 v 0xFF800000#32 reduces_S2x19x16x1024_S2x16x1024 (.inl rfl) rfl

/-- The maximum over the classes at (b, r, w) is the column's maximum. -/
theorem maxCls_apply (v : FVec Ideal S2x19x16x1024 .f32) (b : Fin 2) (r : Fin 16) (w : Fin 1024) :
    maxCls v (ix3 b r w) = colMax (fun k => v (ix4 b k r w)) := by
  unfold maxCls
  refine (Ideal.multiReduction_maximumf_single v _ reduces_S2x19x16x1024_S2x16x1024 (.inl rfl) rfl (ix3 b r w)).trans ?_
  unfold colMax
  exact congrArg (fun f => Finset.fold max negInf f (Finset.univ : Finset (Fin 19)))
    (funext fun k => congrArg v (lift_cls b r w k))

/-- The sum over the class axis. -/
def sumCls (v : FVec Ideal S2x19x16x1024 .f32) : FVec Ideal S2x16x1024 .f32 :=
  multiReduction (F := Ideal) .add [1] S2x16x1024 v 0x00000000#32 reduces_S2x19x16x1024_S2x16x1024 (.inl rfl) rfl

/-- The sum over the classes at (b, r, w). -/
theorem sumCls_apply (v : FVec Ideal S2x19x16x1024 .f32) (b : Fin 2) (r : Fin 16) (w : Fin 1024) :
    sumCls v (ix3 b r w) = ∑ k : Fin 19, v (ix4 b k r w) := by
  unfold sumCls
  refine (Ideal.multiReduction_add_single v _ reduces_S2x19x16x1024_S2x16x1024 (.inl rfl) rfl (ix3 b r w)).trans ?_
  exact Finset.sum_congr rfl fun k _ => congrArg v (lift_cls b r w k)

/-- A [2, 16, 1024] array given a unit class axis and broadcast along it. -/
def keepCls (v : S2x16x1024.Idx → α) : S2x19x16x1024.Idx → α :=
  broadcastTo S2x19x16x1024 (shapeCast S2x1x16x1024 v shapeCasts_S2x16x1024_S2x1x16x1024)
    broadcasts_S2x1x16x1024_S2x19x16x1024

/-- It reads, at (b, k, r, w), the array at (b, r, w). -/
theorem keepCls_apply (v : S2x16x1024.Idx → α) (b : Fin 2) (k : Fin 19) (r : Fin 16) (w : Fin 1024) :
    keepCls v (ix4 b k r w) = v (ix3 b r w) := by
  unfold keepCls
  refine (broadcastTo_apply _ broadcasts_S2x1x16x1024_S2x19x16x1024 (ix4 b k r w) (ix4 b (0 : Fin 1) r w) ?_).trans ?_
  · intro a
    match a with
    | ⟨0, _⟩ => rfl
    | ⟨1, _⟩ => rfl
    | ⟨2, _⟩ => rfl
    | ⟨3, _⟩ => rfl
  · exact shapeCast_apply v _ _ _ (by
      rw [Shape.rowMajor_val_three, Shape.rowMajor_val_four]
      show (b.val * 16 + r.val) * 1024 + w.val = ((b.val * 1 + 0) * 16 + r.val) * 1024 + w.val
      omega)

/-- The [19] weights cast to [1, 19, 1, 1] and broadcast over the tile. -/
def wtTile (x1 : S19.Idx → α) : S2x19x16x1024.Idx → α :=
  broadcastTo S2x19x16x1024 (shapeCast S1x19x1x1 x1 shapeCasts_S19_S1x19x1x1) broadcasts_S1x19x1x1_S2x19x16x1024

/-- They read, at (b, k, r, w), weight `k`. -/
theorem wtTile_apply (x1 : S19.Idx → α) (b : Fin 2) (k : Fin 19) (r : Fin 16) (w : Fin 1024) :
    wtTile x1 (ix4 b k r w) = x1 (ix1 k) := by
  unfold wtTile
  refine (broadcastTo_apply _ broadcasts_S1x19x1x1_S2x19x16x1024 (ix4 b k r w)
    (ix4 (0 : Fin 1) k (0 : Fin 1) (0 : Fin 1)) ?_).trans ?_
  · intro a
    match a with
    | ⟨0, _⟩ => rfl
    | ⟨1, _⟩ => rfl
    | ⟨2, _⟩ => rfl
    | ⟨3, _⟩ => rfl
  · exact shapeCast_apply x1 _ _ _ (by
      rw [Shape.rowMajor_val_one, Shape.rowMajor_val_four]
      show k.val = ((0 * 19 + k.val) * 1 + 0) * 1 + 0
      omega)

end ClassAxis

/-! ## The tile's softmax, stage by stage -/

/-- `exp (x − max x)` over the tile. -/
def eTile (x0 : Vec Ideal S2x19x16x1024 .f32) : FVec Ideal S2x19x16x1024 .f32 :=
  exp (subf x0 (keepCls (maxCls x0)))

/-- The softmax over the tile. -/
def sTile (x0 : Vec Ideal S2x19x16x1024 .f32) : FVec Ideal S2x19x16x1024 .f32 :=
  divf (eTile x0) (keepCls (sumCls (eTile x0)))

/-- The softmax reweighted class by class. -/
def qTile (x0 : Vec Ideal S2x19x16x1024 .f32) (x1 : Vec Ideal S19 .f32) : FVec Ideal S2x19x16x1024 .f32 :=
  mulf (wtTile x1) (sTile x0)

/-- The stored value is the reweighted softmax over its sum along the classes. -/
theorem k0_pay2_eq (x0 : Vec Ideal S2x19x16x1024 .f32) (x1 : Vec Ideal S19 .f32) :
    k0_pay2 (F := Ideal) x0 x1 = divf (qTile x0 x1) (keepCls (sumCls (qTile x0 x1))) := rfl

theorem eTile_apply (x0 : Vec Ideal S2x19x16x1024 .f32) (b : Fin 2) (k : Fin 19) (r : Fin 16) (w : Fin 1024) :
    eTile x0 (ix4 b k r w) = expCol (fun k' => x0 (ix4 b k' r w)) k :=
  congrArg (fun m => Ideal.exp (x0 (ix4 b k r w) - m))
    ((keepCls_apply (maxCls x0) b k r w).trans (maxCls_apply x0 b r w))

theorem sTile_apply (x0 : Vec Ideal S2x19x16x1024 .f32) (b : Fin 2) (k : Fin 19) (r : Fin 16) (w : Fin 1024) :
    sTile x0 (ix4 b k r w) = softCol (fun k' => x0 (ix4 b k' r w)) k :=
  congrArg₂ Ideal.div (eTile_apply x0 b k r w)
    ((keepCls_apply (sumCls (eTile x0)) b k r w).trans ((sumCls_apply (eTile x0) b r w).trans
      (Finset.sum_congr rfl fun k' _ => eTile_apply x0 b k' r w)))

theorem qTile_apply (x0 : Vec Ideal S2x19x16x1024 .f32) (x1 : Vec Ideal S19 .f32)
    (b : Fin 2) (k : Fin 19) (r : Fin 16) (w : Fin 1024) :
    qTile x0 x1 (ix4 b k r w) = wCol (fun k' => x0 (ix4 b k' r w)) (fun k' => x1 (ix1 k')) k :=
  congrArg₂ (fun p q : EReal => p * q) (wtTile_apply x1 b k r w) (sTile_apply x0 b k r w)

/-- The renormalised softmax the tile stores, at (b, k, r, w). -/
theorem pay2_apply (x0 : Vec Ideal S2x19x16x1024 .f32) (x1 : Vec Ideal S19 .f32)
    (b : Fin 2) (k : Fin 19) (r : Fin 16) (w : Fin 1024) :
    k0_pay2 (F := Ideal) x0 x1 (ix4 b k r w) = wpAt x0 x1 b k r w := by
  rw [k0_pay2_eq]
  exact congrArg₂ Ideal.div (qTile_apply x0 x1 b k r w)
    ((keepCls_apply (sumCls (qTile x0 x1)) b k r w).trans ((sumCls_apply (qTile x0 x1) b r w).trans
      (Finset.sum_congr rfl fun k' _ => qTile_apply x0 x1 b k' r w)))

/-! ## The per-class count: columns, then batches, then rows -/

/-- Column `w` inserted into (b, k, r) on axis 3 is (b, k, r, w). -/
theorem lift_col (b : Fin 2) (k : Fin 19) (r : Fin 16) (w : Fin 1024) :
    reduces_S2x19x16x1024_S2x19x16.lift (ix3 b k r) w = ix4 b k r w := by
  funext c
  match c with
  | ⟨0, _⟩ => rfl
  | ⟨1, _⟩ => rfl
  | ⟨2, _⟩ => rfl
  | ⟨3, _⟩ => rfl

/-- The sum over the columns at (b, k, r). -/
theorem sum_col_apply (v : FVec Ideal S2x19x16x1024 .f32) (b : Fin 2) (k : Fin 19) (r : Fin 16) :
    multiReduction (F := Ideal) .add [3] S2x19x16 v 0x00000000#32 reduces_S2x19x16x1024_S2x19x16 (.inl rfl) rfl (ix3 b k r)
      = ∑ w : Fin 1024, v (ix4 b k r w) := by
  refine (Ideal.multiReduction_add_single v _ reduces_S2x19x16x1024_S2x19x16 (.inl rfl) rfl (ix3 b k r)).trans ?_
  exact Finset.sum_congr rfl fun w _ => congrArg v (lift_col b k r w)

/-- A [2, 19, 16] array given a trailing unit axis reads the same element. -/
theorem cast_bkr_apply {α : Type} (v : S2x19x16.Idx → α) (b : Fin 2) (k : Fin 19) (r : Fin 16) :
    shapeCast S2x19x16x1 v shapeCasts_S2x19x16_S2x19x16x1 (ix4 b k r (0 : Fin 1)) = v (ix3 b k r) :=
  shapeCast_apply v _ _ _ (by
    rw [Shape.rowMajor_val_three, Shape.rowMajor_val_four]
    show (b.val * 19 + k.val) * 16 + r.val = ((b.val * 19 + k.val) * 16 + r.val) * 1 + 0
    omega)

/-- Batch `b` inserted into (k, r, 0) on axis 0 is (b, k, r, 0). -/
theorem lift_bat (k : Fin 19) (r : Fin 16) (b : Fin 2) :
    reduces_S2x19x16x1_S19x16x1.lift (ix3 k r (0 : Fin 1)) b = ix4 b k r (0 : Fin 1) := by
  funext c
  match c with
  | ⟨0, _⟩ => rfl
  | ⟨1, _⟩ => rfl
  | ⟨2, _⟩ => rfl
  | ⟨3, _⟩ => rfl

/-- The sum over the batches at (k, r, 0). -/
theorem sum_bat_apply (v : FVec Ideal S2x19x16x1 .f32) (k : Fin 19) (r : Fin 16) :
    multiReduction (F := Ideal) .add [0] S19x16x1 v 0x00000000#32 reduces_S2x19x16x1_S19x16x1 (.inl rfl) rfl (ix3 k r (0 : Fin 1))
      = ∑ b : Fin 2, v (ix4 b k r (0 : Fin 1)) := by
  refine (Ideal.multiReduction_add_single v _ reduces_S2x19x16x1_S19x16x1 (.inl rfl) rfl (ix3 k r (0 : Fin 1))).trans ?_
  exact Finset.sum_congr rfl fun b _ => congrArg v (lift_bat k r b)

/-- Row `r` inserted into (k, 0) on axis 1 is (k, r, 0). -/
theorem lift_row (k : Fin 19) (r : Fin 16) :
    reduces_S19x16x1_S19x1.lift (ix2 k (0 : Fin 1)) r = ix3 k r (0 : Fin 1) := by
  funext c
  match c with
  | ⟨0, _⟩ => rfl
  | ⟨1, _⟩ => rfl
  | ⟨2, _⟩ => rfl

/-- The sum over the rows at (k, 0). -/
theorem sum_row_apply (v : FVec Ideal S19x16x1 .f32) (k : Fin 19) :
    multiReduction (F := Ideal) .add [1] S19x1 v 0x00000000#32 reduces_S19x16x1_S19x1 (.inl rfl) rfl (ix2 k (0 : Fin 1))
      = ∑ r : Fin 16, v (ix3 k r (0 : Fin 1)) := by
  refine (Ideal.multiReduction_add_single v _ reduces_S19x16x1_S19x1 (.inl rfl) rfl (ix2 k (0 : Fin 1))).trans ?_
  exact Finset.sum_congr rfl fun r _ => congrArg v (lift_row k r)

/-- A [19, 1] array cast to [19, 1, 1] and then to [1, 19, 1, 1] reads, at (0, k, 0, 0), the array at (k, 0). -/
theorem cast_k_apply {α : Type} (v : S19x1.Idx → α) (k : Fin 19) :
    shapeCast S1x19x1x1 (shapeCast S19x1x1 v shapeCasts_S19x1_S19x1x1) shapeCasts_S19x1x1_S1x19x1x1
        (ix4 (0 : Fin 1) k (0 : Fin 1) (0 : Fin 1)) = v (ix2 k (0 : Fin 1)) := by
  refine (shapeCast_apply _ shapeCasts_S19x1x1_S1x19x1x1 _ (ix3 k (0 : Fin 1) (0 : Fin 1)) (by
    rw [Shape.rowMajor_val_three, Shape.rowMajor_val_four]
    show (k.val * 1 + 0) * 1 + 0 = ((0 * 19 + k.val) * 1 + 0) * 1 + 0
    omega)).trans ?_
  exact shapeCast_apply v _ _ _ (by
    rw [Shape.rowMajor_val_two, Shape.rowMajor_val_three]
    show k.val * 1 + 0 = (k.val * 1 + 0) * 1 + 0
    omega)

/-- 1 where the stored softmax exceeds the threshold, else 0, over the tile. -/
def indTile (x0 : Vec Ideal S2x19x16x1024 .f32) (x1 : Vec Ideal S19 .f32) : FVec Ideal S2x19x16x1024 .f32 :=
  sitofp .f32 (extui 32 (cmpf .ogt (k0_pay2 (F := Ideal) x0 x1)
    (broadcast S2x19x16x1024 (Scalar.ofBits (F := Ideal) .f32 0x3F666666#32))) natLt_1_32)

theorem indTile_apply (x0 : Vec Ideal S2x19x16x1024 .f32) (x1 : Vec Ideal S19 .f32)
    (b : Fin 2) (k : Fin 19) (r : Fin 16) (w : Fin 1024) :
    indTile x0 x1 (ix4 b k r w) = ind (wpAt x0 x1 b k r w) :=
  congrArg ind (pay2_apply x0 x1 b k r w)

/-- The count is the indicator summed over columns, batches and rows, then viewed as [1, 19, 1, 1]. -/
theorem k0_pay3_eq (x0 : Vec Ideal S2x19x16x1024 .f32) (x1 : Vec Ideal S19 .f32) :
    k0_pay3 (F := Ideal) x0 x1
      = shapeCast S1x19x1x1 (shapeCast S19x1x1
          (multiReduction (F := Ideal) .add [1] S19x1
            (multiReduction (F := Ideal) .add [0] S19x16x1
              (shapeCast S2x19x16x1
                (multiReduction (F := Ideal) .add [3] S2x19x16 (indTile x0 x1) 0x00000000#32
                  reduces_S2x19x16x1024_S2x19x16 (.inl rfl) rfl)
                shapeCasts_S2x19x16_S2x19x16x1)
              0x00000000#32 reduces_S2x19x16x1_S19x16x1 (.inl rfl) rfl)
            0x00000000#32 reduces_S19x16x1_S19x1 (.inl rfl) rfl)
          shapeCasts_S19x1_S19x1x1) shapeCasts_S19x1x1_S1x19x1x1 := rfl

/-- The tile's count for class `k`. -/
theorem pay3_apply (x0 : Vec Ideal S2x19x16x1024 .f32) (x1 : Vec Ideal S19 .f32) (k : Fin 19) :
    k0_pay3 (F := Ideal) x0 x1 (ix4 (0 : Fin 1) k (0 : Fin 1) (0 : Fin 1))
      = ∑ r : Fin 16, ∑ b : Fin 2, ∑ w : Fin 1024, ind (wpAt x0 x1 b k r w) := by
  rw [k0_pay3_eq]
  refine (cast_k_apply _ k).trans ?_
  refine (sum_row_apply _ k).trans ?_
  refine Finset.sum_congr rfl fun r _ => ?_
  refine (sum_bat_apply _ k r).trans ?_
  refine Finset.sum_congr rfl fun b _ => ?_
  refine (cast_bkr_apply _ b k r).trans ?_
  refine (sum_col_apply _ b k r).trans ?_
  exact Finset.sum_congr rfl fun w _ => indTile_apply x0 x1 b k r w

/-! ## The squared error: classes, ignored labels, then batches, columns, rows -/

/-- Batch `b` inserted into (r, w) on axis 0 is (b, r, w). -/
theorem lift_bat_rw (r : Fin 16) (w : Fin 1024) (b : Fin 2) :
    reduces_S2x16x1024_S16x1024.lift (ix2 r w) b = ix3 b r w := by
  funext c
  match c with
  | ⟨0, _⟩ => rfl
  | ⟨1, _⟩ => rfl
  | ⟨2, _⟩ => rfl

/-- The sum over the batches at (r, w). -/
theorem sum_bat_rw_apply (v : FVec Ideal S2x16x1024 .f32) (r : Fin 16) (w : Fin 1024) :
    multiReduction (F := Ideal) .add [0] S16x1024 v 0x00000000#32 reduces_S2x16x1024_S16x1024 (.inl rfl) rfl (ix2 r w)
      = ∑ b : Fin 2, v (ix3 b r w) := by
  refine (Ideal.multiReduction_add_single v _ reduces_S2x16x1024_S16x1024 (.inl rfl) rfl (ix2 r w)).trans ?_
  exact Finset.sum_congr rfl fun b _ => congrArg v (lift_bat_rw r w b)

/-- Column `w` inserted into row `r` on axis 1 is (r, w). -/
theorem lift_col_r (r : Fin 16) (w : Fin 1024) : reduces_S16x1024_S16.lift (ix1 r) w = ix2 r w := by
  funext c
  match c with
  | ⟨0, _⟩ => rfl
  | ⟨1, _⟩ => rfl

/-- The sum over the columns at row `r`. -/
theorem sum_col_r_apply (v : FVec Ideal S16x1024 .f32) (r : Fin 16) :
    multiReduction (F := Ideal) .add [1] S16 v 0x00000000#32 reduces_S16x1024_S16 (.inl rfl) rfl (ix1 r)
      = ∑ w : Fin 1024, v (ix2 r w) := by
  refine (Ideal.multiReduction_add_single v _ reduces_S16x1024_S16 (.inl rfl) rfl (ix1 r)).trans ?_
  exact Finset.sum_congr rfl fun w _ => congrArg v (lift_col_r r w)

/-- A [16] array given a trailing unit axis reads the same element. -/
theorem cast_r_apply {α : Type} (v : S16.Idx → α) (r : Fin 16) :
    shapeCast S16x1 v shapeCasts_S16_S16x1 (ix2 r (0 : Fin 1)) = v (ix1 r) :=
  shapeCast_apply v _ _ _ (by
    rw [Shape.rowMajor_val_one, Shape.rowMajor_val_two]
    show r.val = r.val * 1 + 0
    omega)

/-- Row `r` inserted into the one index of [1] on axis 0 is (r, 0). -/
theorem lift_row_one (r : Fin 16) : reduces_S16x1_S1.lift (ix1 (0 : Fin 1)) r = ix2 r (0 : Fin 1) := by
  funext c
  match c with
  | ⟨0, _⟩ => rfl
  | ⟨1, _⟩ => rfl

/-- The sum over the rows, at the one index of [1]. -/
theorem sum_row_one_apply (v : FVec Ideal S16x1 .f32) :
    multiReduction (F := Ideal) .add [0] S1 v 0x00000000#32 reduces_S16x1_S1 (.inl rfl) rfl (ix1 (0 : Fin 1))
      = ∑ r : Fin 16, v (ix2 r (0 : Fin 1)) := by
  refine (Ideal.multiReduction_add_single v _ reduces_S16x1_S1 (.inl rfl) rfl (ix1 (0 : Fin 1))).trans ?_
  exact Finset.sum_congr rfl fun r _ => congrArg v (lift_row_one r)

/-- A [1] array cast to [1, 1] and then to [1, 1, 1] reads its one element. -/
theorem cast_one_apply {α : Type} (v : S1.Idx → α) :
    shapeCast S1x1x1 (shapeCast S1x1 v shapeCasts_S1_S1x1) shapeCasts_S1x1_S1x1x1
        (ix3 (0 : Fin 1) (0 : Fin 1) (0 : Fin 1)) = v (ix1 (0 : Fin 1)) := by
  refine (shapeCast_apply _ shapeCasts_S1x1_S1x1x1 _ (ix2 (0 : Fin 1) (0 : Fin 1)) (by
    rw [Shape.rowMajor_val_two, Shape.rowMajor_val_three]
    show 0 * 1 + 0 = (0 * 1 + 0) * 1 + 0
    omega)).trans ?_
  exact shapeCast_apply v _ _ _ (by
    rw [Shape.rowMajor_val_one, Shape.rowMajor_val_two]
    show 0 = 0 * 1 + 0
    omega)

/-- The class numbers 0 … 18 along axis 1 of [1, 19, 1, 1], broadcast over the tile, read `k` at (b, k, r, w). -/
theorem clsTile_apply (b : Fin 2) (k : Fin 19) (r : Fin 16) (w : Fin 1024) :
    broadcastTo S2x19x16x1024 (iota .tc S1x19x1x1 32 [1] iota_S1x19x1x1_d1_w32) broadcasts_S1x19x1x1_S2x19x16x1024
        (ix4 b k r w) = BitVec.ofNat 32 k.val := by
  refine (broadcastTo_apply _ broadcasts_S1x19x1x1_S2x19x16x1024 (ix4 b k r w)
    (ix4 (0 : Fin 1) k (0 : Fin 1) (0 : Fin 1)) ?_).trans ?_
  · intro a
    match a with
    | ⟨0, _⟩ => rfl
    | ⟨1, _⟩ => rfl
    | ⟨2, _⟩ => rfl
    | ⟨3, _⟩ => rfl
  · exact iota_single_apply .tc S1x19x1x1 32 1 iota_S1x19x1x1_d1_w32 (ix4 (0 : Fin 1) k (0 : Fin 1) (0 : Fin 1))

/-- The labels broadcast along the class axis read, at (b, k, r, w), the label of pixel (b, r, w). -/
theorem pay4_apply (x2 : Vec Ideal S2x16x1024 .i32) (b : Fin 2) (k : Fin 19) (r : Fin 16) (w : Fin 1024) :
    k0_pay4 (F := Ideal) x2 (ix4 b k r w) = x2 (ix3 b r w) :=
  keepCls_apply (α := BitVec 32) x2 b k r w

/-- The one-hot columns of the labels over the tile. -/
def hotTile (x2 : Vec Ideal S2x16x1024 .i32) : FVec Ideal S2x19x16x1024 .f32 :=
  sitofp .f32 (extui 32 (cmpi .eq (k0_pay4 (F := Ideal) x2)
    (broadcastTo S2x19x16x1024 (iota .tc S1x19x1x1 32 [1] iota_S1x19x1x1_d1_w32) broadcasts_S1x19x1x1_S2x19x16x1024))
    natLt_1_32)

theorem hotTile_apply (x2 : Vec Ideal S2x16x1024 .i32) (b : Fin 2) (k : Fin 19) (r : Fin 16) (w : Fin 1024) :
    hotTile x2 (ix4 b k r w) = oneHot (x2 (ix3 b r w)) k :=
  congrArg₂ (fun (l c : BitVec 32) => ((((IntOp.cmpi .eq l c).setWidth 32).toInt : ℝ) : EReal))
    (pay4_apply x2 b k r w) (clsTile_apply b k r w)

/-- The squared difference of the stored softmax and the one-hot columns over the tile. -/
def sqTile (x0 : Vec Ideal S2x19x16x1024 .f32) (x1 : Vec Ideal S19 .f32) (x2 : Vec Ideal S2x16x1024 .i32) :
    FVec Ideal S2x19x16x1024 .f32 :=
  mulf (subf (k0_pay2 (F := Ideal) x0 x1) (hotTile x2)) (subf (k0_pay2 (F := Ideal) x0 x1) (hotTile x2))

theorem sqTile_apply (x0 : Vec Ideal S2x19x16x1024 .f32) (x1 : Vec Ideal S19 .f32) (x2 : Vec Ideal S2x16x1024 .i32)
    (b : Fin 2) (k : Fin 19) (r : Fin 16) (w : Fin 1024) :
    sqTile x0 x1 x2 (ix4 b k r w)
      = (wpAt x0 x1 b k r w - oneHot (x2 (ix3 b r w)) k) * (wpAt x0 x1 b k r w - oneHot (x2 (ix3 b r w)) k) :=
  congrArg₂ (fun p h : EReal => (p - h) * (p - h)) (pay2_apply x0 x1 b k r w) (hotTile_apply x2 b k r w)

/-- Per pixel: the squared error summed over the classes, zero where the label is 255. -/
def seTile (x0 : Vec Ideal S2x19x16x1024 .f32) (x1 : Vec Ideal S19 .f32) (x2 : Vec Ideal S2x16x1024 .i32) :
    FVec Ideal S2x16x1024 .f32 :=
  select (cmpi .eq x2 (broadcast S2x16x1024 255#32))
    (broadcast S2x16x1024 (Scalar.ofBits (F := Ideal) .f32 0x00000000#32)) (sumCls (sqTile x0 x1 x2))

theorem seTile_apply (x0 : Vec Ideal S2x19x16x1024 .f32) (x1 : Vec Ideal S19 .f32) (x2 : Vec Ideal S2x16x1024 .i32)
    (b : Fin 2) (r : Fin 16) (w : Fin 1024) :
    seTile x0 x1 x2 (ix3 b r w) = sePix (fun k => wpAt x0 x1 b k r w) (x2 (ix3 b r w)) :=
  congrArg (Scalar.select (IntOp.cmpi .eq (x2 (ix3 b r w)) 255#32) zero32)
    ((sumCls_apply (sqTile x0 x1 x2) b r w).trans (Finset.sum_congr rfl fun k _ => sqTile_apply x0 x1 x2 b k r w))

/-- The stored squared error is the per-pixel one summed over batches, columns and rows, then viewed as [1, 1, 1]. -/
theorem k0_pay1_eq (x0 : Vec Ideal S2x19x16x1024 .f32) (x1 : Vec Ideal S19 .f32) (x2 : Vec Ideal S2x16x1024 .i32) :
    k0_pay1 (F := Ideal) (k0_pay2 x0 x1) x2 (iota .tc S1x19x1x1 32 [1] iota_S1x19x1x1_d1_w32) (k0_pay4 (F := Ideal) x2)
      = shapeCast S1x1x1 (shapeCast S1x1
          (multiReduction (F := Ideal) .add [0] S1
            (shapeCast S16x1
              (multiReduction (F := Ideal) .add [1] S16
                (multiReduction (F := Ideal) .add [0] S16x1024 (seTile x0 x1 x2) 0x00000000#32
                  reduces_S2x16x1024_S16x1024 (.inl rfl) rfl)
                0x00000000#32 reduces_S16x1024_S16 (.inl rfl) rfl)
              shapeCasts_S16_S16x1)
            0x00000000#32 reduces_S16x1_S1 (.inl rfl) rfl)
          shapeCasts_S1_S1x1) shapeCasts_S1x1_S1x1x1 := rfl

/-- The tile's squared error. -/
theorem pay1_apply (x0 : Vec Ideal S2x19x16x1024 .f32) (x1 : Vec Ideal S19 .f32) (x2 : Vec Ideal S2x16x1024 .i32) :
    k0_pay1 (F := Ideal) (k0_pay2 x0 x1) x2 (iota .tc S1x19x1x1 32 [1] iota_S1x19x1x1_d1_w32) (k0_pay4 (F := Ideal) x2)
        (ix3 (0 : Fin 1) (0 : Fin 1) (0 : Fin 1))
      = ∑ r : Fin 16, ∑ w : Fin 1024, ∑ b : Fin 2, sePix (fun k => wpAt x0 x1 b k r w) (x2 (ix3 b r w)) := by
  refine (congrFun (k0_pay1_eq x0 x1 x2) _).trans ?_
  refine (cast_one_apply _).trans ?_
  refine (sum_row_one_apply _).trans ?_
  refine Finset.sum_congr rfl fun r _ => ?_
  refine (cast_r_apply _ r).trans ?_
  refine (sum_col_r_apply _ r).trans ?_
  refine Finset.sum_congr rfl fun w _ => ?_
  refine (sum_bat_rw_apply _ r w).trans ?_
  exact Finset.sum_congr rfl fun b _ => seTile_apply x0 x1 x2 b r w

end Cert.KernelIdeal.PayValue

end
-- ==== Proof.KernelBlocks.lean ====
/-
  From tiles to arrays. Grid point `t` (0 ≤ t < 32) stages rows 16·t … 16·t + 15 of the score array and of the label
  array, and the whole weight vector; it writes back rows 16·t … 16·t + 15 of the renormalised-softmax array, row `t` of
  the [32, 19, 1, 1] array of per-tile class counts and row `t` of the [32, 1, 1] array of per-tile squared errors.
  Every index of each of the three arrays lies in exactly the block of the point that covers its leading row, so after
  the thirty-two write-backs each array is ONE function of the argument arrays as the region finds them:
  the softmax array is the specification's `wpArr`; entry (t, k) of the count array is the count of class `k` over
  tile `t`'s pixels; entry `t` of the error array is the squared error summed over tile `t`'s pixels.
-/
import proofs.«123401_j48180943127204_2_alg».proof.Proof.Gen.KernelIdeal.Frame
import proofs.«123401_j48180943127204_2_alg».proof.Proof.PayRead
import proofs.«123401_j48180943127204_2_alg».proof.Proof.Spec
import Idealize.ShloMosaic.Lib.Pipeline.Value

noncomputable section

open scoped BigOperators

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.Calib

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- A grid point as a tile number. -/
def tile (t : Fin cfg0.N) : Fin 32 := ⟨t.val, by have h : cfg0.N = 32 := N_0; have := t.isLt; omega⟩

/-! ## What the body leaves in the three output buffers: its payloads -/

theorem out3_eq (x0 : Vec Ideal S2x19x16x1024 .f32) (x1 : Vec Ideal S19 .f32) (x2 : Vec Ideal S2x16x1024 .i32) :
    out0_3 x0 x1 x2 = k0_pay2 x0 x1 := by
  unfold out0_3
  rw [View.canon_unit_zero hz4]
  simp only [View.ld_unit_zero (S := S2x19x16x1024) hz4, View.ld_unit_zero (S := S19) hz1]

theorem out4_eq (x0 : Vec Ideal S2x19x16x1024 .f32) (x1 : Vec Ideal S19 .f32) (x2 : Vec Ideal S2x16x1024 .i32) :
    out0_4 x0 x1 x2 = k0_pay3 x0 x1 := by
  unfold out0_4
  rw [View.canon_unit_zero hz4]
  simp only [View.ld_unit_zero (S := S2x19x16x1024) hz4, View.ld_unit_zero (S := S19) hz1]

theorem out5_eq (x0 : Vec Ideal S2x19x16x1024 .f32) (x1 : Vec Ideal S19 .f32) (x2 : Vec Ideal S2x16x1024 .i32) :
    out0_5 x0 x1 x2 = k0_pay1 (k0_pay2 x0 x1) x2 (iota .tc S1x19x1x1 32 [1] iota_S1x19x1x1_d1_w32) (k0_pay4 (F := Ideal) x2) := by
  unfold out0_5
  rw [View.canon_unit_zero hz3]
  simp only [View.ld_unit_zero (S := S2x19x16x1024) hz4, View.ld_unit_zero (S := S19) hz1, View.ld_unit_zero (S := S2x16x1024) hz3]

/-! ## The index maps, decided over the thirty-two points -/

theorem idx_facts : ∀ t : Fin cfg0.N,
    (win0_0.index t (0 : Fin 4) = 0 ∧ win0_0.index t (1 : Fin 4) = 0 ∧ win0_0.index t (2 : Fin 4) = t.val ∧ win0_0.index t (3 : Fin 4) = 0)
    ∧ win0_1.index t (0 : Fin 1) = 0
    ∧ (win0_2.index t (0 : Fin 3) = 0 ∧ win0_2.index t (1 : Fin 3) = t.val ∧ win0_2.index t (2 : Fin 3) = 0)
    ∧ (win0_3.index t (0 : Fin 4) = 0 ∧ win0_3.index t (1 : Fin 4) = 0 ∧ win0_3.index t (2 : Fin 4) = t.val ∧ win0_3.index t (3 : Fin 4) = 0)
    ∧ (win0_4.index t (0 : Fin 4) = t.val ∧ win0_4.index t (1 : Fin 4) = 0 ∧ win0_4.index t (2 : Fin 4) = 0 ∧ win0_4.index t (3 : Fin 4) = 0)
    ∧ (win0_5.index t (0 : Fin 3) = t.val ∧ win0_5.index t (1 : Fin 3) = 0 ∧ win0_5.index t (2 : Fin 3) = 0) :=
  (by decide +kernel : ∀ t : Fin grid0.N, _)

/-! ## The input blocks, read at coordinates -/

/-- Entry (b, k, r, w) of tile `t`'s score block is entry (b, k, 16·t + r, w) of the score array. -/
theorem iblk0_apply (c : Dev nD) (t : Fin cfg0.N) (b : Fin 2) (k : Fin 19) (r : Fin 16) (w : Fin 1024) :
    (iblk m c 0 t : Vec Ideal S2x19x16x1024 .f32) (ix4 b k r w)
      = (V m c main_arg0 : S2x19x512x1024.Idx → EReal) (ix4 b k (rowOf (tile t) r) w) := by
  obtain ⟨⟨e0, e1, e2, e3⟩, -⟩ := idx_facts t
  unfold iblk
  rw [View.read_apply]
  show V m c main_arg0 _ = V m c main_arg0 _
  congr 1
  funext a
  apply Fin.ext
  match a with
  | ⟨0, _⟩ => show win0_0.index t (0 : Fin 4) * 2 + 1 * b.val = b.val; rw [e0]; omega
  | ⟨1, _⟩ => show win0_0.index t (1 : Fin 4) * 19 + 1 * k.val = k.val; rw [e1]; omega
  | ⟨2, _⟩ => show win0_0.index t (2 : Fin 4) * 16 + 1 * r.val = 16 * t.val + r.val; rw [e2]; omega
  | ⟨3, _⟩ => show win0_0.index t (3 : Fin 4) * 1024 + 1 * w.val = w.val; rw [e3]; omega

/-- The weight block is the weight vector. -/
theorem iblk1_apply (c : Dev nD) (t : Fin cfg0.N) (k : Fin 19) :
    (iblk m c 1 t : Vec Ideal S19 .f32) (ix1 k) = (V m c main_arg1 : S19.Idx → EReal) (ix1 k) := by
  obtain ⟨-, e0, -⟩ := idx_facts t
  unfold iblk
  rw [View.read_apply]
  show V m c main_arg1 _ = V m c main_arg1 _
  congr 1
  funext a
  apply Fin.ext
  match a with
  | ⟨0, _⟩ => show win0_1.index t (0 : Fin 1) * 19 + 1 * k.val = k.val; rw [e0]; omega

/-- Entry (b, r, w) of tile `t`'s label block is entry (b, 16·t + r, w) of the label array. -/
theorem iblk2_apply (c : Dev nD) (t : Fin cfg0.N) (b : Fin 2) (r : Fin 16) (w : Fin 1024) :
    (iblk m c 2 t : Vec Ideal S2x16x1024 .i32) (ix3 b r w)
      = (V m c main_arg2 : S2x512x1024.Idx → BitVec 32) (ix3 b (rowOf (tile t) r) w) := by
  obtain ⟨-, -, ⟨e0, e1, e2⟩, -⟩ := idx_facts t
  unfold iblk
  rw [View.read_apply]
  show V m c main_arg2 _ = V m c main_arg2 _
  congr 1
  funext a
  apply Fin.ext
  match a with
  | ⟨0, _⟩ => show win0_2.index t (0 : Fin 3) * 2 + 1 * b.val = b.val; rw [e0]; omega
  | ⟨1, _⟩ => show win0_2.index t (1 : Fin 3) * 16 + 1 * r.val = 16 * t.val + r.val; rw [e1]; omega
  | ⟨2, _⟩ => show win0_2.index t (2 : Fin 3) * 1024 + 1 * w.val = w.val; rw [e2]; omega

/-- So a pixel of tile `t` has, in the tile's blocks, the renormalised softmax it has in the whole arrays. -/
theorem wpAt_blk (c : Dev nD) (t : Fin cfg0.N) (b : Fin 2) (k : Fin 19) (r : Fin 16) (w : Fin 1024) :
    wpAt (iblk m c 0 t : Vec Ideal S2x19x16x1024 .f32) (iblk m c 1 t : Vec Ideal S19 .f32) b k r w
      = wpAt (V m c main_arg0 : S2x19x512x1024.Idx → EReal) (V m c main_arg1 : S19.Idx → EReal) b k (rowOf (tile t) r) w := by
  unfold wpAt
  rw [show (fun k' => (iblk m c 0 t : Vec Ideal S2x19x16x1024 .f32) (ix4 b k' r w))
        = fun k' => (V m c main_arg0 : S2x19x512x1024.Idx → EReal) (ix4 b k' (rowOf (tile t) r) w)
      from funext fun k' => iblk0_apply m c t b k' r w,
    show (fun k' => (iblk m c 1 t : Vec Ideal S19 .f32) (ix1 k'))
        = fun k' => (V m c main_arg1 : S19.Idx → EReal) (ix1 k')
      from funext fun k' => iblk1_apply m c t k']

/-! ## The softmax array -/

/-- Entry (b, k, r, w) of output block `t` sits at (b, k, 16·t + r, w) of the softmax array. -/
theorem emb3 (t : Fin cfg0.N) (b : Fin 2) (k : Fin 19) (r : Fin 16) (w : Fin 1024) :
    ((cfg0.win 3).blk t).view.emb (ix4 b k r w : S2x19x16x1024.Idx) = (ix4 b k (rowOf (tile t) r) w : S2x19x512x1024.Idx) := by
  obtain ⟨-, -, -, ⟨e0, e1, e2, e3⟩, -⟩ := idx_facts t
  funext a
  apply Fin.ext
  match a with
  | ⟨0, _⟩ => show win0_3.index t (0 : Fin 4) * 2 + 1 * b.val = b.val; rw [e0]; omega
  | ⟨1, _⟩ => show win0_3.index t (1 : Fin 4) * 19 + 1 * k.val = k.val; rw [e1]; omega
  | ⟨2, _⟩ => show win0_3.index t (2 : Fin 4) * 16 + 1 * r.val = 16 * t.val + r.val; rw [e2]; omega
  | ⟨3, _⟩ => show win0_3.index t (3 : Fin 4) * 1024 + 1 * w.val = w.val; rw [e3]; omega

/-- What point `t` writes back to the softmax array is block `t` of `wpArr` of the argument arrays. -/
theorem flushed3_eq (c : Dev nD) (t : Fin cfg0.N) :
    (dats m 0 c).flushed 3 t = ((cfg0.win 3).blk t).view.read (Elt Ideal)
      (wpArr (V m c main_arg0 : S2x19x512x1024.Idx → EReal) (V m c main_arg1 : S19.Idx → EReal)) := by
  show (cfg0.win 3).cut (grid0.coords t) ((dats m 0 c).after 3 t) = _
  rw [after0_3, out3_eq]
  refine funext fun (y : S2x19x16x1024.Idx) => ?_
  obtain ⟨b, k, r, w, rfl⟩ : ∃ (b : Fin 2) (k : Fin 19) (r : Fin 16) (w : Fin 1024), y = ix4 b k r w :=
    ⟨y 0, y 1, y 2, y 3, eq_ix4 y⟩
  show k0_pay2 (iblk m c 0 t) (iblk m c 1 t) (ix4 b k r w)
    = wpArr (V m c main_arg0 : S2x19x512x1024.Idx → EReal) (V m c main_arg1 : S19.Idx → EReal)
        (((cfg0.win 3).blk t).view.emb (ix4 b k r w : S2x19x16x1024.Idx))
  rw [emb3 t b k r w]
  refine (PayValue.pay2_apply _ _ b k r w).trans ?_
  exact wpAt_blk m c t b k r w

theorem mem_blk3 (t : Fin cfg0.N) (i : S2x19x512x1024.Idx) :
    i ∈ ((cfg0.win 3).blk t).view.set ↔ ∀ a : Fin 4, win0_3.index t a * S2x19x16x1024.size a ≤ (i a).val
      ∧ (i a).val < win0_3.index t a * S2x19x16x1024.size a + S2x19x16x1024.size a := by
  show i ∈ ((View.whole main_v0_0).slice (win0_3.rect t)).set ↔ _
  rw [View.set_slice_whole, Rect.mem_set_unit]
  exact Iff.rfl

/-- Every entry of the softmax array is in the block of the point that covers its row. -/
theorem cover3 (i : S2x19x512x1024.Idx) :
    ∃ t : Fin cfg0.N, (cfg0.win 3).flush t = true ∧ i ∈ ((cfg0.win 3).blk t).view.set := by
  have hN : cfg0.N = 32 := N_0
  have h0 : (i 0).val < 2 := (i 0).isLt
  have h1 : (i 1).val < 19 := (i 1).isLt
  have h2 : (i 2).val < 512 := (i 2).isLt
  have h3 : (i 3).val < 1024 := (i 3).isLt
  obtain ⟨t, ht⟩ : ∃ t : Fin cfg0.N, t.val = (i 2).val / 16 := ⟨⟨(i 2).val / 16, by omega⟩, rfl⟩
  obtain ⟨-, -, -, ⟨e0, e1, e2, e3⟩, -⟩ := idx_facts t
  refine ⟨t, flush0_3 t, ?_⟩
  rw [mem_blk3]
  intro a
  match a with
  | ⟨0, _⟩ => show win0_3.index t (0 : Fin 4) * 2 ≤ (i 0).val ∧ (i 0).val < win0_3.index t (0 : Fin 4) * 2 + 2; rw [e0]; omega
  | ⟨1, _⟩ => show win0_3.index t (1 : Fin 4) * 19 ≤ (i 1).val ∧ (i 1).val < win0_3.index t (1 : Fin 4) * 19 + 19; rw [e1]; omega
  | ⟨2, _⟩ => show win0_3.index t (2 : Fin 4) * 16 ≤ (i 2).val ∧ (i 2).val < win0_3.index t (2 : Fin 4) * 16 + 16; rw [e2]; omega
  | ⟨3, _⟩ => show win0_3.index t (3 : Fin 4) * 1024 ≤ (i 3).val ∧ (i 3).val < win0_3.index t (3 : Fin 4) * 1024 + 1024; rw [e3]; omega

/-- THE SOFTMAX ARRAY after the run. -/
theorem final3 (c : Dev nD) : (dats m 0 c).arrAt 3 cfg0.N
    = wpArr (V m c main_arg0 : S2x19x512x1024.Idx → EReal) (V m c main_arg1 : S19.Idx → EReal) :=
  (dats m 0 c).arrAt_eq_of_cover 3 _ (fun t _ => flushed3_eq m c t) cover3

/-! ## The per-tile class counts -/

/-- Entry (t, k) of the count array: the count of class `k` over tile `t`'s pixels (rows, batches, columns). -/
def tileCount (c : Dev nD) : S32x19x1x1.Idx → EReal := fun i =>
  ∑ r : Fin 16, ∑ b : Fin 2, ∑ w : Fin 1024,
    ind (wpAt (V m c main_arg0 : S2x19x512x1024.Idx → EReal) (V m c main_arg1 : S19.Idx → EReal) b (i 1) (rowOf (i 0) r) w)

theorem emb4 (t : Fin cfg0.N) (k : Fin 19) :
    ((cfg0.win 4).blk t).view.emb (ix4 (0 : Fin 1) k (0 : Fin 1) (0 : Fin 1) : S1x19x1x1.Idx)
      = (ix4 (tile t) k (0 : Fin 1) (0 : Fin 1) : S32x19x1x1.Idx) := by
  obtain ⟨-, -, -, -, ⟨e0, e1, e2, e3⟩, -⟩ := idx_facts t
  funext a
  apply Fin.ext
  match a with
  | ⟨0, _⟩ => show win0_4.index t (0 : Fin 4) * 1 + 1 * 0 = t.val; rw [e0]; omega
  | ⟨1, _⟩ => show win0_4.index t (1 : Fin 4) * 19 + 1 * k.val = k.val; rw [e1]; omega
  | ⟨2, _⟩ => show win0_4.index t (2 : Fin 4) * 1 + 1 * 0 = 0; rw [e2]
  | ⟨3, _⟩ => show win0_4.index t (3 : Fin 4) * 1 + 1 * 0 = 0; rw [e3]

theorem idx_1k11 (y : S1x19x1x1.Idx) : y = ix4 (0 : Fin 1) (y 1) (0 : Fin 1) (0 : Fin 1) := by
  funext a
  match a with
  | ⟨0, _⟩ => exact Fin.ext (Nat.lt_one_iff.mp (show (y 0).val < 1 from (y 0).isLt))
  | ⟨1, _⟩ => rfl
  | ⟨2, _⟩ => exact Fin.ext (Nat.lt_one_iff.mp (show (y 2).val < 1 from (y 2).isLt))
  | ⟨3, _⟩ => exact Fin.ext (Nat.lt_one_iff.mp (show (y 3).val < 1 from (y 3).isLt))

theorem flushed4_eq (c : Dev nD) (t : Fin cfg0.N) :
    (dats m 0 c).flushed 4 t = ((cfg0.win 4).blk t).view.read (Elt Ideal) (tileCount m c) := by
  show (cfg0.win 4).cut (grid0.coords t) ((dats m 0 c).after 4 t) = _
  rw [after0_4, out4_eq]
  refine funext fun (y : S1x19x1x1.Idx) => ?_
  obtain ⟨k, rfl⟩ : ∃ k : Fin 19, y = ix4 (0 : Fin 1) k (0 : Fin 1) (0 : Fin 1) := ⟨y 1, idx_1k11 y⟩
  show k0_pay3 (iblk m c 0 t) (iblk m c 1 t) (ix4 (0 : Fin 1) k (0 : Fin 1) (0 : Fin 1))
    = tileCount m c (((cfg0.win 4).blk t).view.emb (ix4 (0 : Fin 1) k (0 : Fin 1) (0 : Fin 1) : S1x19x1x1.Idx))
  rw [emb4 t k]
  refine (PayValue.pay3_apply _ _ k).trans ?_
  exact Finset.sum_congr rfl fun r _ => Finset.sum_congr rfl fun b _ => Finset.sum_congr rfl fun w _ =>
    congrArg ind (wpAt_blk m c t b k r w)

theorem mem_blk4 (t : Fin cfg0.N) (i : S32x19x1x1.Idx) :
    i ∈ ((cfg0.win 4).blk t).view.set ↔ ∀ a : Fin 4, win0_4.index t a * S1x19x1x1.size a ≤ (i a).val
      ∧ (i a).val < win0_4.index t a * S1x19x1x1.size a + S1x19x1x1.size a := by
  show i ∈ ((View.whole main_v0_1).slice (win0_4.rect t)).set ↔ _
  rw [View.set_slice_whole, Rect.mem_set_unit]
  exact Iff.rfl

theorem cover4 (i : S32x19x1x1.Idx) :
    ∃ t : Fin cfg0.N, (cfg0.win 4).flush t = true ∧ i ∈ ((cfg0.win 4).blk t).view.set := by
  have hN : cfg0.N = 32 := N_0
  have h0 : (i 0).val < 32 := (i 0).isLt
  have h1 : (i 1).val < 19 := (i 1).isLt
  have h2 : (i 2).val < 1 := (i 2).isLt
  have h3 : (i 3).val < 1 := (i 3).isLt
  obtain ⟨t, ht⟩ : ∃ t : Fin cfg0.N, t.val = (i 0).val := ⟨⟨(i 0).val, by omega⟩, rfl⟩
  obtain ⟨-, -, -, -, ⟨e0, e1, e2, e3⟩, -⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; rw [e0]; omega
  | ⟨1, _⟩ => show win0_4.index t (1 : Fin 4) * 19 ≤ (i 1).val ∧ (i 1).val < win0_4.index t (1 : Fin 4) * 19 + 19; rw [e1]; omega
  | ⟨2, _⟩ => show win0_4.index t (2 : Fin 4) * 1 ≤ (i 2).val ∧ (i 2).val < win0_4.index t (2 : Fin 4) * 1 + 1; rw [e2]; omega
  | ⟨3, _⟩ => show win0_4.index t (3 : Fin 4) * 1 ≤ (i 3).val ∧ (i 3).val < win0_4.index t (3 : Fin 4) * 1 + 1; rw [e3]; omega

/-- THE COUNT ARRAY after the run. -/
theorem final4 (c : Dev nD) : (dats m 0 c).arrAt 4 cfg0.N = tileCount m c :=
  (dats m 0 c).arrAt_eq_of_cover 4 _ (fun t _ => flushed4_eq m c t) cover4

/-! ## The per-tile squared errors -/

/-- Entry `t` of the error array: the squared error summed over tile `t`'s pixels (rows, columns, batches). -/
def tileErr (c : Dev nD) : S32x1x1.Idx → EReal := fun i =>
  ∑ r : Fin 16, ∑ w : Fin 1024, ∑ b : Fin 2,
    sePix (fun k => wpAt (V m c main_arg0 : S2x19x512x1024.Idx → EReal) (V m c main_arg1 : S19.Idx → EReal) b k (rowOf (i 0) r) w)
      ((V m c main_arg2 : S2x512x1024.Idx → BitVec 32) (ix3 b (rowOf (i 0) r) w))

theorem emb5 (t : Fin cfg0.N) :
    ((cfg0.win 5).blk t).view.emb (ix3 (0 : Fin 1) (0 : Fin 1) (0 : Fin 1) : S1x1x1.Idx)
      = (ix3 (tile t) (0 : Fin 1) (0 : Fin 1) : S32x1x1.Idx) := by
  obtain ⟨-, -, -, -, -, e0, e1, e2⟩ := idx_facts t
  funext a
  apply Fin.ext
  match a with
  | ⟨0, _⟩ => show win0_5.index t (0 : Fin 3) * 1 + 1 * 0 = t.val; rw [e0]; omega
  | ⟨1, _⟩ => show win0_5.index t (1 : Fin 3) * 1 + 1 * 0 = 0; rw [e1]
  | ⟨2, _⟩ => show win0_5.index t (2 : Fin 3) * 1 + 1 * 0 = 0; rw [e2]

theorem idx_111 (y : S1x1x1.Idx) : y = ix3 (0 : Fin 1) (0 : Fin 1) (0 : Fin 1) := by
  funext a
  match a with
  | ⟨0, _⟩ => exact Fin.ext (Nat.lt_one_iff.mp (show (y 0).val < 1 from (y 0).isLt))
  | ⟨1, _⟩ => exact Fin.ext (Nat.lt_one_iff.mp (show (y 1).val < 1 from (y 1).isLt))
  | ⟨2, _⟩ => exact Fin.ext (Nat.lt_one_iff.mp (show (y 2).val < 1 from (y 2).isLt))

theorem flushed5_eq (c : Dev nD) (t : Fin cfg0.N) :
    (dats m 0 c).flushed 5 t = ((cfg0.win 5).blk t).view.read (Elt Ideal) (tileErr m c) := by
  show (cfg0.win 5).cut (grid0.coords t) ((dats m 0 c).after 5 t) = _
  rw [after0_5, out5_eq]
  refine funext fun (y : S1x1x1.Idx) => ?_
  obtain rfl : y = ix3 (0 : Fin 1) (0 : Fin 1) (0 : Fin 1) := idx_111 y
  show k0_pay1 (k0_pay2 (iblk m c 0 t) (iblk m c 1 t)) (iblk m c 2 t) (iota .tc S1x19x1x1 32 [1] iota_S1x19x1x1_d1_w32)
        (k0_pay4 (F := Ideal) (iblk m c 2 t)) (ix3 (0 : Fin 1) (0 : Fin 1) (0 : Fin 1))
    = tileErr m c (((cfg0.win 5).blk t).view.emb (ix3 (0 : Fin 1) (0 : Fin 1) (0 : Fin 1) : S1x1x1.Idx))
  rw [emb5 t]
  refine (PayValue.pay1_apply _ _ _).trans ?_
  refine Finset.sum_congr rfl fun r _ => Finset.sum_congr rfl fun w _ => Finset.sum_congr rfl fun b _ => ?_
  show sePix _ _ = sePix _ _
  rw [iblk2_apply m c t b r w,
    show (fun k => wpAt (iblk m c 0 t : Vec Ideal S2x19x16x1024 .f32) (iblk m c 1 t : Vec Ideal S19 .f32) b k r w)
        = fun k => wpAt (V m c main_arg0 : S2x19x512x1024.Idx → EReal) (V m c main_arg1 : S19.Idx → EReal) b k (rowOf (tile t) r) w
      from funext fun k => wpAt_blk m c t b k r w]

theorem mem_blk5 (t : Fin cfg0.N) (i : S32x1x1.Idx) :
    i ∈ ((cfg0.win 5).blk t).view.set ↔ ∀ a : Fin 3, win0_5.index t a * S1x1x1.size a ≤ (i a).val
      ∧ (i a).val < win0_5.index t a * S1x1x1.size a + S1x1x1.size a := by
  show i ∈ ((View.whole main_v0_2).slice (win0_5.rect t)).set ↔ _
  rw [View.set_slice_whole, Rect.mem_set_unit]
  exact Iff.rfl

theorem cover5 (i : S32x1x1.Idx) :
    ∃ t : Fin cfg0.N, (cfg0.win 5).flush t = true ∧ i ∈ ((cfg0.win 5).blk t).view.set := by
  have hN : cfg0.N = 32 := N_0
  have h0 : (i 0).val < 32 := (i 0).isLt
  have h1 : (i 1).val < 1 := (i 1).isLt
  have h2 : (i 2).val < 1 := (i 2).isLt
  obtain ⟨t, ht⟩ : ∃ t : Fin cfg0.N, t.val = (i 0).val := ⟨⟨(i 0).val, by omega⟩, rfl⟩
  obtain ⟨-, -, -, -, -, e0, e1, e2⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 1 ≤ (i 1).val ∧ (i 1).val < win0_5.index t (1 : Fin 3) * 1 + 1; rw [e1]; omega
  | ⟨2, _⟩ => show win0_5.index t (2 : Fin 3) * 1 ≤ (i 2).val ∧ (i 2).val < win0_5.index t (2 : Fin 3) * 1 + 1; rw [e2]; omega

/-- THE ERROR ARRAY after the run. -/
theorem final5 (c : Dev nD) : (dats m 0 c).arrAt 5 cfg0.N = tileErr m c :=
  (dats m 0 c).arrAt_eq_of_cover 5 _ (fun t _ => flushed5_eq m c t) cover5

end Cert.KernelIdeal.KValue

end
-- ==== Proof.LibIdxSums.lean ====
/-
  Sums over the index set of a rank-3 or rank-4 array, taken coordinate by coordinate, and the host's add-reductions
  read through them at the exact values: a reduction of a [n0, n1, n2, n3] array over the axes 0, 2, 3 at class `k`
  is the initial value plus the threefold sum over the other coordinates of the entries (a, k, c, d); a reduction of
  a [n0, n1, n2] array over all its axes is the initial value plus the threefold sum over all coordinates.
-/
import Idealize.ShloMosaic.Lib.ValueIdx
import Idealize.ShloMosaic.PureOps.Ideal.Laws

noncomputable section

open scoped BigOperators

namespace Cert.Lib.IdxSums

open Idealize.ShloMosaic Idealize.ShloMosaic.ValueIdx

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the threefold sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The sum over the rank-4 indices whose second coordinate is `k`: the threefold sum over the other coordinates. -/
theorem sum_filter_axis1 {M : Type*} [AddCommMonoid M] {n0 n1 n2 n3 : Nat} (x : (⟨4, ![n0, n1, n2, n3]⟩ : Shape).Idx → M)
    (k : Fin n1) (p : (⟨4, ![n0, n1, n2, n3]⟩ : Shape).Idx → Prop) [DecidablePred p] (hp : ∀ i, p i ↔ i 1 = k) :
    ∑ i ∈ Finset.univ.filter p, x i = ∑ a : Fin n0, ∑ c : Fin n2, ∑ d : Fin n3, x (ix4 a k c d) := by
  rw [Finset.sum_filter, sum_idx4]
  refine Finset.sum_congr rfl fun a _ => ?_
  rw [Finset.sum_eq_single k]
  · refine Finset.sum_congr rfl fun c _ => Finset.sum_congr rfl fun d _ => ?_
    rw [if_pos ((hp _).mpr rfl)]
  · intro b _ hb
    refine Finset.sum_eq_zero fun c _ => Finset.sum_eq_zero fun d _ => ?_
    rw [if_neg (fun h => hb ((hp _).mp h))]
  · intro h
    exact absurd (Finset.mem_univ k) h

/-- Dropping the axes 0, 2, 3 of a rank-4 index leaves its second coordinate. -/
theorem drop_023_iff {n0 n1 n2 n3 : Nat} (h : (⟨4, ![n0, n1, n2, n3]⟩ : Shape).ReducesTo [0, 2, 3] ⟨1, ![n1]⟩)
    (i : (⟨4, ![n0, n1, n2, n3]⟩ : Shape).Idx) (k : Fin n1) : h.drop i = ix1 k ↔ i 1 = k := by
  constructor
  · intro e
    have := congrArg (fun j : (⟨1, ![n1]⟩ : Shape).Idx => (j 0).val) e
    exact Fin.ext this
  · intro e
    funext b
    match b with
    | ⟨0, _⟩ => exact Fin.ext (congrArg Fin.val e)

/-- The host's sum over the axes 0, 2, 3 of a rank-4 array, at class `k`. -/
theorem hostSum_023 {n0 n1 n2 n3 : Nat} (h : (⟨4, ![n0, n1, n2, n3]⟩ : Shape).ReducesTo [0, 2, 3] ⟨1, ![n1]⟩)
    (x : (⟨4, ![n0, n1, n2, n3]⟩ : Shape).Idx → EReal) (init : EReal) (k : Fin n1) :
    Ideal.hostReduceAdd h x init (ix1 k) = init + ∑ a : Fin n0, ∑ c : Fin n2, ∑ d : Fin n3, x (ix4 a k c d) := by
  unfold Ideal.hostReduceAdd
  rw [sum_filter_axis1 x k _ (fun i => drop_023_iff h i k)]

/-- The host's sum over every axis of a rank-3 array. -/
theorem hostSum_all3 {n0 n1 n2 : Nat} (h : (⟨3, ![n0, n1, n2]⟩ : Shape).ReducesTo [0, 1, 2] ⟨0, ![]⟩)
    (x : (⟨3, ![n0, n1, n2]⟩ : Shape).Idx → EReal) (init : EReal) (j : (⟨0, ![]⟩ : Shape).Idx) :
    Ideal.hostReduceAdd h x init j = init + ∑ a : Fin n0, ∑ b : Fin n1, ∑ c : Fin n2, x (ix3 a b c) := by
  rw [Ideal.hostReduceAdd_total h (fun b => b.elim0) x init j, sum_idx3]

end Cert.Lib.IdxSums

end
-- ==== Proof.KernelValue.lean ====
/-
  The kernel program, run and read. After the thirty-two tiles the host sums the per-tile counts over the tiles
  (per class) and the per-tile squared errors over the tiles, and applies the loss's closing operations. A sum over the
  tiles of sums over a tile's sixteen rows is the sum over all 512 rows, and finite sums of extended reals may be taken in
  any order of their variables, so the summed counts are the whole array's per-class counts and the summed errors the whole
  array's squared error: the scalar result is the specification's loss of them, and the array result is the
  renormalised softmax of the arguments.
-/
import proofs.«123401_j48180943127204_2_alg».proof.Proof.Gen.KernelIdeal.Frame
import proofs.«123401_j48180943127204_2_alg».proof.Proof.KernelBlocks
import proofs.«123401_j48180943127204_2_alg».proof.Proof.LibIdxSums
import proofs.«123401_j48180943127204_2_alg».proof.Proof.Spec
import Idealize.ShloMosaic.Lib.Pipeline.Value
import Idealize.ShloMosaic.Lib.StableHlo.Run

noncomputable section

open scoped BigOperators

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.StableHlo
open Idealize.ShloMosaic.ValueIdx Cert.Calib Cert.Lib.IdxSums

variable (m : (ℓ : Loc nD τ sig) → Buf (Elt Ideal) ℓ) (ρ : Dev nD → PrngReg)

/-- The prior table as the program's constant holds it. -/
def prior : FVec Ideal S19 .f32 := fun i => FloatOps.ofBits .f32 (lit0 (S19.rowMajor i))

/-- The host operations after the region, applied to any contents `W` of the buffers they read: the loss of the
    prior table, the counts summed over the tiles and the errors summed over the tiles. -/
theorem tail_after (W : Valuation τ sig (Elt Ideal)) :
    StableHlo.after (hostOps1 (F := Ideal)) W (Proc.devRef .tc main_v14)
      = lossTail Facts₀.reducesTo_S19_S_d0 Facts₀.h_S_ Facts₀.bcast_S_S19
          (W (Proc.devRef .tc main_cst))
          (Host.reduceAdd (F := Ideal) (W (Proc.devRef .tc main_v0_1)) (constant (F := Ideal) S_ .f32 0x00000000#32) Facts₀.reducesTo_S32x19x1x1_S19_d0_2_3 Facts₀.h_S_)
          (Host.reduceAdd (F := Ideal) (W (Proc.devRef .tc main_v0_2)) (constant (F := Ideal) S_ .f32 0x00000000#32) Facts₀.reducesTo_S32x1x1_S_d0_1_2 Facts₀.h_S_) := by
  after_results
  rfl

/-- The constant the one host operation before the region writes. -/
theorem V0_cst (c : Dev nD) : V0 m c (Proc.devRef .tc main_cst) = prior := by
  show StableHlo.after (hostOps0 (F := Ideal)) (fun b => m (c, b)) (Proc.devRef .tc main_cst) = _
  after_results
  rfl

/-- The scalar after the host tail, over the three arrays the region leaves. -/
theorem tail_eq (c : Dev nD) :
    Pipeline.afterTail₀ cfgs (dats m) 0 (V0 m) [hostOps1] c main_v14
      = lossTail Facts₀.reducesTo_S19_S_d0 Facts₀.h_S_ Facts₀.bcast_S_S19 prior
          (Host.reduceAdd (F := Ideal) (tileCount m c) (constant (F := Ideal) S_ .f32 0x00000000#32) Facts₀.reducesTo_S32x19x1x1_S19_d0_2_3 Facts₀.h_S_)
          (Host.reduceAdd (F := Ideal) (tileErr m c) (constant (F := Ideal) S_ .f32 0x00000000#32) Facts₀.reducesTo_S32x1x1_S_d0_1_2 Facts₀.h_S_) := by
  have e4 : Pipeline.withArrays spec0 c (V0 m c) (fun w => (dats m 0 c).arrAt w cfg0.N) (Proc.devRef .tc main_v0_1)
      = (dats m 0 c).arrAt 4 cfg0.N :=
    Pipeline.withArrays_arr spec0 launch0.win.arr_inj c (V0 m c) (fun w => (dats m 0 c).arrAt w cfg0.N) 4
  have e5 : Pipeline.withArrays spec0 c (V0 m c) (fun w => (dats m 0 c).arrAt w cfg0.N) (Proc.devRef .tc main_v0_2)
      = (dats m 0 c).arrAt 5 cfg0.N :=
    Pipeline.withArrays_arr spec0 launch0.win.arr_inj c (V0 m c) (fun w => (dats m 0 c).arrAt w cfg0.N) 5
  have ec : Pipeline.withArrays spec0 c (V0 m c) (fun w => (dats m 0 c).arrAt w cfg0.N) (Proc.devRef .tc main_cst)
      = V0 m c (Proc.devRef .tc main_cst) :=
    Pipeline.withArrays_of_ne spec0 c (V0 m c) (fun w => (dats m 0 c).arrAt w cfg0.N) main_cst
      (fun w => by fin_cases w <;> decide)
  have h := tail_after (Pipeline.withArrays spec0 c (V0 m c) (fun w => (dats m 0 c).arrAt w cfg0.N))
  rw [e4, e5, ec, final4 m c, final5 m c, V0_cst m c] at h
  exact h

/-- The per-tile counts summed over the tiles are the whole array's per-class counts. -/
theorem count_sum (c : Dev nD) :
    Host.reduceAdd (F := Ideal) (tileCount m c) (constant (F := Ideal) S_ .f32 0x00000000#32) Facts₀.reducesTo_S32x19x1x1_S19_d0_2_3 Facts₀.h_S_
      = sizeArr (V m c main_arg0 : S2x19x512x1024.Idx → EReal) (V m c main_arg1 : S19.Idx → EReal) := by
  refine funext fun (j : S19.Idx) => ?_
  obtain ⟨k, rfl⟩ : ∃ k : Fin 19, j = ix1 k := ⟨j 0, eq_ix1 j⟩
  show Ideal.hostReduceAdd Facts₀.reducesTo_S32x19x1x1_S19_d0_2_3 (tileCount m c) (Ideal.ofBits .f32 0x00000000#32) (ix1 k) = _
  rw [hostSum_023, Ideal.ofBits_zero_f32, zero_add]
  simp only [Fin.sum_univ_one]
  exact sum_tiles_size (fun b h w =>
    ind (wpAt (V m c main_arg0 : S2x19x512x1024.Idx → EReal) (V m c main_arg1 : S19.Idx → EReal) b k h w))

/-- The per-tile squared errors summed over the tiles are the whole array's squared error. -/
theorem err_sum (c : Dev nD) :
    Host.reduceAdd (F := Ideal) (tileErr m c) (constant (F := Ideal) S_ .f32 0x00000000#32) Facts₀.reducesTo_S32x1x1_S_d0_1_2 Facts₀.h_S_
      = seArr (V m c main_arg0 : S2x19x512x1024.Idx → EReal) (V m c main_arg1 : S19.Idx → EReal)
          (V m c main_arg2 : S2x512x1024.Idx → BitVec 32) := by
  refine funext fun (j : S_.Idx) => ?_
  show Ideal.hostReduceAdd Facts₀.reducesTo_S32x1x1_S_d0_1_2 (tileErr m c) (Ideal.ofBits .f32 0x00000000#32) j = _
  rw [hostSum_all3, Ideal.ofBits_zero_f32, zero_add]
  simp only [Fin.sum_univ_one]
  exact sum_tiles_se (fun b h w =>
    sePix (fun k => wpAt (V m c main_arg0 : S2x19x512x1024.Idx → EReal) (V m c main_arg1 : S19.Idx → EReal) b k h w)
      ((V m c main_arg2 : S2x512x1024.Idx → BitVec 32) (ix3 b h w)))

/-- The scalar result is no window's array and is not scoped: the frame run states it after the host tail. -/
theorem v14_rest : main_v14 ∈ Pipeline.restRefs sig (cfgs 0).spec :=
  Pipeline.mem_restRefs_of main_v14 rfl (fun w => by fin_cases w <;> decide)

/-- THE RUN, READ: the scalar result at the loss of the whole array's counts and squared error, the array result at
    the renormalised softmax of the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v14)
          = lossTail Facts₀.reducesTo_S19_S_d0 Facts₀.h_S_ Facts₀.bcast_S_S19 prior
              (sizeArr (m ((c.tc : Thread nD τ).loc main_arg0)) (m ((c.tc : Thread nD τ).loc main_arg1)))
              (seArr (m ((c.tc : Thread nD τ).loc main_arg0)) (m ((c.tc : Thread nD τ).loc main_arg1))
                (m ((c.tc : Thread nD τ).loc main_arg2)))
      ∧ r.2.mem ((c.tc : Thread nD τ).loc main_v0_0)
          = wpArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(((h c).2 main_v14 v14_rest).trans (tail_eq m c)).trans (by
        rw [count_sum m c, err_sum m c, V_main_arg0 m c, V_main_arg1 m c, V_main_arg2 m c]),
      (((h c).1 3).trans (final3 m c)).trans (by rw [V_main_arg0 m c, V_main_arg1 m c]),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue

end
-- ==== Proof.RefRun.lean ====
/-
  The reference program as a straight line of host operations, and what each result holds after it.

  @main's two calls are module-local functions whose bodies are unfolded at the call sites, so the whole program is
  one list of sixty-five operations on named buffers. Running the list from any memory leaves every buffer at the
  fold of the operations over the initial contents; read at the two result buffers, that fold is a composition of
  array stages of the three arguments: the exponentials of the scores shifted by their class-wise maximum, the
  softmax, its reweighting, the renormalised array, the per-class counts above the threshold, the one-hot array of the
  labels, the masked squared error summed over every pixel, and the scalar tail.
-/
import proofs.«123401_j48180943127204_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- @main's operations in order, the two calls unfolded: the one-hot function is six operations on its own
    buffers (the label array with a trailing unit axis, the class numbers, both broadcast to [2,512,1024,19], their
    comparison, its conversion), the masked select two (the zero broadcast, the select). -/
abbrev ops : List (HloOp τ sig (Elt F)) :=
  [ nullary main_cst (fun i => FloatOps.ofBits .f32 (lit0 (S19.rowMajor i))),
    nullary main_cst_0 (constant S_ .f32 0x00000000#32),
    binary main_cst main_cst_0 main_v0 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    unary main_v0 main_v1 (broadcastInDim S19 ![] bcast_S_S19 : (⟨S_, .f32⟩ : BufTy).Contents (Elt F) → (⟨S19, .f32⟩ : BufTy).Contents (Elt F)),
    binary main_cst main_v1 main_v2 (Host.divf : (⟨S19, .f32⟩ : BufTy).Contents (Elt F) → (⟨S19, .f32⟩ : BufTy).Contents (Elt F) → (⟨S19, .f32⟩ : BufTy).Contents (Elt F)),
    nullary main_cst_1 (constant S_ .f32 0xFF800000#32),
    binary main_arg0 main_cst_1 main_v3 ((fun x v => Host.reduce FloatOps.maximumf x v reducesTo_S2x19x512x1024_S2x512x1024_d1 h_S_) : (⟨S2x19x512x1024, .f32⟩ : BufTy).Contents (Elt F) → (⟨S_, .f32⟩ : BufTy).Contents (Elt F) → (⟨S2x512x1024, .f32⟩ : BufTy).Contents (Elt F)),
    nullary main_cst_2 (constant S_ .f32 0xFF800000#32),
    unary main_cst_2 main_v4 (broadcastInDim S2x512x1024 ![] bcast_S_S2x512x1024 : (⟨S_, .f32⟩ : BufTy).Contents (Elt F) → (⟨S2x512x1024, .f32⟩ : BufTy).Contents (Elt F)),
    binary main_v4 main_v3 main_v5 (maximumf : (⟨S2x512x1024, .f32⟩ : BufTy).Contents (Elt F) → (⟨S2x512x1024, .f32⟩ : BufTy).Contents (Elt F) → (⟨S2x512x1024, .f32⟩ : BufTy).Contents (Elt F)),
    unary main_v5 main_v6 (broadcastInDim S2x1x512x1024 ![0, 2, 3] bcast_S2x512x1024_S2x1x512x1024_0_2_3 : (⟨S2x512x1024, .f32⟩ : BufTy).Contents (Elt F) → (⟨S2x1x512x1024, .f32⟩ : BufTy).Contents (Elt F)),
    unary main_v6 main_v7 (broadcastInDim S2x19x512x1024 ![0, 1, 2, 3] bcast_S2x1x512x1024_S2x19x512x1024_0_1_2_3 : (⟨S2x1x512x1024, .f32⟩ : BufTy).Contents (Elt F) → (⟨S2x19x512x1024, .f32⟩ : BufTy).Contents (Elt F)),
    binary main_arg0 main_v7 main_v8 (subf : (⟨S2x19x512x1024, .f32⟩ : BufTy).Contents (Elt F) → (⟨S2x19x512x1024, .f32⟩ : BufTy).Contents (Elt F) → (⟨S2x19x512x1024, .f32⟩ : BufTy).Contents (Elt F)),
    unary main_v8 main_v9 (Host.exp : (⟨S2x19x512x1024, .f32⟩ : BufTy).Contents (Elt F) → (⟨S2x19x512x1024, .f32⟩ : BufTy).Contents (Elt F)),
    nullary main_cst_3 (constant S_ .f32 0x00000000#32),
    binary main_v9 main_cst_3 main_v10 ((fun x v => Host.reduceAdd x v reducesTo_S2x19x512x1024_S2x512x1024_d1 h_S_) : (⟨S2x19x512x1024, .f32⟩ : BufTy).Contents (Elt F) → (⟨S_, .f32⟩ : BufTy).Contents (Elt F) → (⟨S2x512x1024, .f32⟩ : BufTy).Contents (Elt F)),
    unary main_v10 main_v11 (broadcastInDim S2x1x512x1024 ![0, 2, 3] bcast_S2x512x1024_S2x1x512x1024_0_2_3 : (⟨S2x512x1024, .f32⟩ : BufTy).Contents (Elt F) → (⟨S2x1x512x1024, .f32⟩ : BufTy).Contents (Elt F)),
    unary main_v11 main_v12 (broadcastInDim S2x19x512x1024 ![0, 1, 2, 3] bcast_S2x1x512x1024_S2x19x512x1024_0_1_2_3 : (⟨S2x1x512x1024, .f32⟩ : BufTy).Contents (Elt F) → (⟨S2x19x512x1024, .f32⟩ : BufTy).Contents (Elt F)),
    binary main_v9 main_v12 main_v13 (Host.divf : (⟨S2x19x512x1024, .f32⟩ : BufTy).Contents (Elt F) → (⟨S2x19x512x1024, .f32⟩ : BufTy).Contents (Elt F) → (⟨S2x19x512x1024, .f32⟩ : BufTy).Contents (Elt F)),
    unary main_arg1 main_v14 (broadcastInDim S1x19x1x1 ![1] bcast_S19_S1x19x1x1_1 : (⟨S19, .f32⟩ : BufTy).Contents (Elt F) → (⟨S1x19x1x1, .f32⟩ : BufTy).Contents (Elt F)),
    unary main_v14 main_v15 (broadcastInDim S2x19x512x1024 ![0, 1, 2, 3] bcast_S1x19x1x1_S2x19x512x1024_0_1_2_3 : (⟨S1x19x1x1, .f32⟩ : BufTy).Contents (Elt F) → (⟨S2x19x512x1024, .f32⟩ : BufTy).Contents (Elt F)),
    binary main_v15 main_v13 main_v16 (mulf : (⟨S2x19x512x1024, .f32⟩ : BufTy).Contents (Elt F) → (⟨S2x19x512x1024, .f32⟩ : BufTy).Contents (Elt F) → (⟨S2x19x512x1024, .f32⟩ : BufTy).Contents (Elt F)),
    nullary main_cst_4 (constant S_ .f32 0x00000000#32),
    binary main_v16 main_cst_4 main_v17 ((fun x v => Host.reduceAdd x v reducesTo_S2x19x512x1024_S2x512x1024_d1 h_S_) : (⟨S2x19x512x1024, .f32⟩ : BufTy).Contents (Elt F) → (⟨S_, .f32⟩ : BufTy).Contents (Elt F) → (⟨S2x512x1024, .f32⟩ : BufTy).Contents (Elt F)),
    unary main_v17 main_v18 (broadcastInDim S2x1x512x1024 ![0, 2, 3] bcast_S2x512x1024_S2x1x512x1024_0_2_3 : (⟨S2x512x1024, .f32⟩ : BufTy).Contents (Elt F) → (⟨S2x1x512x1024, .f32⟩ : BufTy).Contents (Elt F)),
    unary main_v18 main_v19 (broadcastInDim S2x19x512x1024 ![0, 1, 2, 3] bcast_S2x1x512x1024_S2x19x512x1024_0_1_2_3 : (⟨S2x1x512x1024, .f32⟩ : BufTy).Contents (Elt F) → (⟨S2x19x512x1024, .f32⟩ : BufTy).Contents (Elt F)),
    binary main_v16 main_v19 main_v20 (Host.divf : (⟨S2x19x512x1024, .f32⟩ : BufTy).Contents (Elt F) → (⟨S2x19x512x1024, .f32⟩ : BufTy).Contents (Elt F) → (⟨S2x19x512x1024, .f32⟩ : BufTy).Contents (Elt F)),
    nullary main_cst_5 (constant S_ .f32 0x3F666666#32),
    unary main_cst_5 main_v21 (broadcastInDim S2x19x512x1024 ![] bcast_S_S2x19x512x1024 : (⟨S_, .f32⟩ : BufTy).Contents (Elt F) → (⟨S2x19x512x1024, .f32⟩ : BufTy).Contents (Elt F)),
    binary main_v20 main_v21 main_v22 (cmpf .ogt : (⟨S2x19x512x1024, .f32⟩ : BufTy).Contents (Elt F) → (⟨S2x19x512x1024, .f32⟩ : BufTy).Contents (Elt F) → (⟨S2x19x512x1024, .i1⟩ : BufTy).Contents (Elt F)),
    unary main_v22 main_v23 (uitofp .f32 : (⟨S2x19x512x1024, .i1⟩ : BufTy).Contents (Elt F) → (⟨S2x19x512x1024, .f32⟩ : BufTy).Contents (Elt F)),
    nullary main_cst_6 (constant S_ .f32 0x00000000#32),
    binary main_v23 main_cst_6 main_v24 ((fun x v => Host.reduceAdd x v reducesTo_S2x19x512x1024_S19_d0_2_3 h_S_) : (⟨S2x19x512x1024, .f32⟩ : BufTy).Contents (Elt F) → (⟨S_, .f32⟩ : BufTy).Contents (Elt F) → (⟨S19, .f32⟩ : BufTy).Contents (Elt F)),
    nullary main_cst_7 (constant S_ .f32 0x00000000#32),
    binary main_v24 main_cst_7 main_v25 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    unary main_v25 main_v26 (broadcastInDim S19 ![] bcast_S_S19 : (⟨S_, .f32⟩ : BufTy).Contents (Elt F) → (⟨S19, .f32⟩ : BufTy).Contents (Elt F)),
    binary main_v24 main_v26 main_v27 (Host.divf : (⟨S19, .f32⟩ : BufTy).Contents (Elt F) → (⟨S19, .f32⟩ : BufTy).Contents (Elt F) → (⟨S19, .f32⟩ : BufTy).Contents (Elt F)),
    binary main_v27 main_v2 main_v28 (subf : (⟨S19, .f32⟩ : BufTy).Contents (Elt F) → (⟨S19, .f32⟩ : BufTy).Contents (Elt F) → (⟨S19, .f32⟩ : BufTy).Contents (Elt F)),
    binary main_v28 main_v28 main_v29 (mulf : (⟨S19, .f32⟩ : BufTy).Contents (Elt F) → (⟨S19, .f32⟩ : BufTy).Contents (Elt F) → (⟨S19, .f32⟩ : BufTy).Contents (Elt F)),
    nullary main_cst_8 (constant S_ .f32 0x00000000#32),
    binary main_v29 main_cst_8 main_v30 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    TRef.unary (.of main_arg2 : TRef sig ⟨S2x512x1024, .i32⟩) main_call0.v0 (broadcastInDim S2x512x1024x1 ![0, 1, 2] bcast_S2x512x1024_S2x512x1024x1_0_1_2),
    TRef.nullary main_call0.v1 (iotaInDim S1x1x1x19 32 3),
    TRef.unary main_call0.v0 main_call0.v2 (broadcastInDim S2x512x1024x19 ![0, 1, 2, 3] bcast_S2x512x1024x1_S2x512x1024x19_0_1_2_3),
    TRef.unary main_call0.v1 main_call0.v3 (broadcastInDim S2x512x1024x19 ![0, 1, 2, 3] bcast_S1x1x1x19_S2x512x1024x19_0_1_2_3),
    TRef.binary main_call0.v2 main_call0.v3 main_call0.v4 (cmpi .eq),
    TRef.unary main_call0.v4 main_call0.v5 (uitofp .f32),
    unary main_v31 main_v32 ((transpose S2x19x512x1024 [0, 3, 1, 2] · transposes_S2x512x1024x19_S2x19x512x1024_0_3_1_2) : (⟨S2x512x1024x19, .f32⟩ : BufTy).Contents (Elt F) → (⟨S2x19x512x1024, .f32⟩ : BufTy).Contents (Elt F)),
    binary main_v20 main_v32 main_v33 (subf : (⟨S2x19x512x1024, .f32⟩ : BufTy).Contents (Elt F) → (⟨S2x19x512x1024, .f32⟩ : BufTy).Contents (Elt F) → (⟨S2x19x512x1024, .f32⟩ : BufTy).Contents (Elt F)),
    binary main_v33 main_v33 main_v34 (mulf : (⟨S2x19x512x1024, .f32⟩ : BufTy).Contents (Elt F) → (⟨S2x19x512x1024, .f32⟩ : BufTy).Contents (Elt F) → (⟨S2x19x512x1024, .f32⟩ : BufTy).Contents (Elt F)),
    nullary main_cst_9 (constant S_ .f32 0x00000000#32),
    binary main_v34 main_cst_9 main_v35 ((fun x v => Host.reduceAdd x v reducesTo_S2x19x512x1024_S2x512x1024_d1 h_S_) : (⟨S2x19x512x1024, .f32⟩ : BufTy).Contents (Elt F) → (⟨S_, .f32⟩ : BufTy).Contents (Elt F) → (⟨S2x512x1024, .f32⟩ : BufTy).Contents (Elt F)),
    nullary main_c (constantI S_ 32 255#32),
    unary main_c main_v36 (broadcastInDim S2x512x1024 ![] bcast_S_S2x512x1024 : (⟨S_, .i32⟩ : BufTy).Contents (Elt F) → (⟨S2x512x1024, .i32⟩ : BufTy).Contents (Elt F)),
    binary main_arg2 main_v36 main_v37 (cmpi .eq : (⟨S2x512x1024, .i32⟩ : BufTy).Contents (Elt F) → (⟨S2x512x1024, .i32⟩ : BufTy).Contents (Elt F) → (⟨S2x512x1024, .i1⟩ : BufTy).Contents (Elt F)),
    nullary main_cst_10 (constant S_ .f32 0x00000000#32),
    TRef.unary (.of main_cst_10 : TRef sig ⟨S_, .f32⟩) main_call1.v0 (broadcastInDim S2x512x1024 ![] bcast_S_S2x512x1024),
    TRef.ternary (.of main_v37 : TRef sig ⟨S2x512x1024, .i1⟩) main_call1.v0 (.of main_v35 : TRef sig ⟨S2x512x1024, .f32⟩) main_call1.v1 select,
    nullary main_cst_11 (constant S_ .f32 0x00000000#32),
    binary main_v38 main_cst_11 main_v39 ((fun x v => Host.reduceAdd x v reducesTo_S2x512x1024_S_d0_1_2 h_S_) : (⟨S2x512x1024, .f32⟩ : BufTy).Contents (Elt F) → (⟨S_, .f32⟩ : BufTy).Contents (Elt F) → (⟨S_, .f32⟩ : BufTy).Contents (Elt F)),
    nullary main_cst_12 (constant S_ .f32 0x49800000#32),
    binary main_v39 main_cst_12 main_v40 (Host.divf : (⟨S_, .f32⟩ : BufTy).Contents (Elt F) → (⟨S_, .f32⟩ : BufTy).Contents (Elt F) → (⟨S_, .f32⟩ : BufTy).Contents (Elt F)),
    nullary main_cst_13 (constant S_ .f32 0x3D4CCCCD#32),
    binary main_cst_13 main_v40 main_v41 (mulf : (⟨S_, .f32⟩ : BufTy).Contents (Elt F) → (⟨S_, .f32⟩ : BufTy).Contents (Elt F) → (⟨S_, .f32⟩ : BufTy).Contents (Elt F)),
    binary main_v30 main_v41 main_v42 (addf : (⟨S_, .f32⟩ : BufTy).Contents (Elt F) → (⟨S_, .f32⟩ : BufTy).Contents (Elt F) → (⟨S_, .f32⟩ : BufTy).Contents (Elt F)) ]

-- the program is a chain of sixty-five sequenced steps, re-associated one step inside the next: the depth bound is raised to match
set_option maxRecDepth 2048 in
/-- @main is that straight line: the two functions' definitions unfolded at their calls, both sides are one chain of
    steps once sequencing is reassociated. -/
theorem main_eq (c : Dev nD) : main (F := F) c = seq ops := by
  simp only [main, fn_one_hot.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., nullary_bufs_sub .., binary_bufs_sub .., nullary_bufs_sub .., binary_bufs_sub .., unary_bufs_sub .., binary_bufs_sub .., binary_bufs_sub .., binary_bufs_sub .., nullary_bufs_sub .., binary_bufs_sub .., unary_bufs_sub .., nullary_bufs_sub .., unary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., ternary_bufs_sub .., nullary_bufs_sub .., binary_bufs_sub .., nullary_bufs_sub .., binary_bufs_sub .., nullary_bufs_sub .., binary_bufs_sub .., binary_bufs_sub ..⟩

/-- From any memory with zero counters every weakly fair execution of @main terminates, and every buffer ends at the
    fold of the operations over the initial contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The stages -/

/-- A [2,512,1024] array repeated along the class axis. -/
def overClasses {α : Type} (v : S2x512x1024.Idx → α) : S2x19x512x1024.Idx → α :=
  broadcastInDim S2x19x512x1024 ![0, 1, 2, 3] bcast_S2x1x512x1024_S2x19x512x1024_0_1_2_3
    (broadcastInDim S2x1x512x1024 ![0, 2, 3] bcast_S2x512x1024_S2x1x512x1024_0_2_3 v)

/-- The sum over the class axis, from the zero word. -/
def sumClasses (v : FVec F S2x19x512x1024 .f32) : FVec F S2x512x1024 .f32 :=
  Host.reduceAdd v (constant S_ .f32 0x00000000#32) reducesTo_S2x19x512x1024_S2x512x1024_d1 h_S_

/-- The class-wise maximum of the scores, from −∞, and once more against a −∞ splat. -/
def maxClasses (x : FVec F S2x19x512x1024 .f32) : FVec F S2x512x1024 .f32 :=
  maximumf (broadcastInDim S2x512x1024 ![] bcast_S_S2x512x1024 (constant S_ .f32 0xFF800000#32))
    (Host.reduce FloatOps.maximumf x (constant S_ .f32 0xFF800000#32) reducesTo_S2x19x512x1024_S2x512x1024_d1 h_S_)

/-- exp (score − the pixel's largest score). -/
def stExp (x : FVec F S2x19x512x1024 .f32) : FVec F S2x19x512x1024 .f32 :=
  Host.exp (subf x (overClasses (maxClasses x)))

/-- The softmax over the classes. -/
def stSoft (x : FVec F S2x19x512x1024 .f32) : FVec F S2x19x512x1024 .f32 :=
  Host.divf (stExp x) (overClasses (sumClasses (stExp x)))

/-- The softmax reweighted class by class. -/
def stW (x : FVec F S2x19x512x1024 .f32) (wt : FVec F S19 .f32) : FVec F S2x19x512x1024 .f32 :=
  mulf (broadcastInDim S2x19x512x1024 ![0, 1, 2, 3] bcast_S1x19x1x1_S2x19x512x1024_0_1_2_3
      (broadcastInDim S1x19x1x1 ![1] bcast_S19_S1x19x1x1_1 wt)) (stSoft x)

/-- … and renormalised: the array result. -/
def stWp (x : FVec F S2x19x512x1024 .f32) (wt : FVec F S19 .f32) : FVec F S2x19x512x1024 .f32 :=
  Host.divf (stW x wt) (overClasses (sumClasses (stW x wt)))

/-- Per class, the number of entries of an array above the threshold. -/
def stSize (p : FVec F S2x19x512x1024 .f32) : FVec F S19 .f32 :=
  Host.reduceAdd
    (uitofp .f32 (cmpf .ogt p (broadcastInDim S2x19x512x1024 ![] bcast_S_S2x19x512x1024 (constant S_ .f32 0x3F666666#32))))
    (constant S_ .f32 0x00000000#32) reducesTo_S2x19x512x1024_S19_d0_2_3 h_S_

/-- The one-hot array of the labels, classes on axis 1. -/
def stHot (lab : IVec S2x512x1024 32) : FVec F S2x19x512x1024 .f32 :=
  transpose S2x19x512x1024 [0, 3, 1, 2]
    (uitofp .f32 (cmpi .eq
      (broadcastInDim S2x512x1024x19 ![0, 1, 2, 3] bcast_S2x512x1024x1_S2x512x1024x19_0_1_2_3
        (broadcastInDim S2x512x1024x1 ![0, 1, 2] bcast_S2x512x1024_S2x512x1024x1_0_1_2 lab))
      (broadcastInDim S2x512x1024x19 ![0, 1, 2, 3] bcast_S1x1x1x19_S2x512x1024x19_0_1_2_3 (iotaInDim S1x1x1x19 32 3))))
    transposes_S2x512x1024x19_S2x19x512x1024_0_3_1_2

/-- The squared error against the one-hot array, summed over the classes, zero where the label is 255, summed over
    every pixel. -/
def stSe (p : FVec F S2x19x512x1024 .f32) (lab : IVec S2x512x1024 32) : FVec F S_ .f32 :=
  Host.reduceAdd
    (select (cmpi .eq lab (broadcastInDim S2x512x1024 ![] bcast_S_S2x512x1024 (constantI S_ 32 255#32)))
      (broadcastInDim S2x512x1024 ![] bcast_S_S2x512x1024 (constant S_ .f32 0x00000000#32))
      (sumClasses (mulf (subf p (stHot lab)) (subf p (stHot lab)))))
    (constant S_ .f32 0x00000000#32) reducesTo_S2x512x1024_S_d0_1_2 h_S_

/-- A [19] array over its sum. -/
def ratio (v : FVec F S19 .f32) : FVec F S19 .f32 :=
  Host.divf v (broadcastInDim S19 ![] bcast_S_S19 (Host.reduceAdd v (constant S_ .f32 0x00000000#32) reducesTo_S19_S_d0 h_S_))

/-- The scalar tail: the squared distance of the count ratios from the prior ratios, plus 0.05 of the mean squared
    error. -/
def stLoss (prior size : FVec F S19 .f32) (se : FVec F S_ .f32) : FVec F S_ .f32 :=
  addf
    (Host.reduceAdd (mulf (subf (ratio size) (ratio prior)) (subf (ratio size) (ratio prior)))
      (constant S_ .f32 0x00000000#32) reducesTo_S19_S_d0 h_S_)
    (mulf (constant S_ .f32 0x3D4CCCCD#32) (Host.divf se (constant S_ .f32 0x49800000#32)))

/-! ## The results after the line -/

attribute [local irreducible] Host.reduce Host.reduceAdd transpose broadcastInDim in
set_option maxRecDepth 8192 in
set_option maxHeartbeats 1000000 in
/-- The array result is the renormalised array of the first two arguments. -/
theorem v20_eq (V : Valuation τ sig (Elt F)) :
    after ops V (main_v20 : DevRef τ sig) = stWp (V (main_arg0 : DevRef τ sig)) (V (main_arg1 : DevRef τ sig)) := by
  after_results_simp
  rfl

attribute [local irreducible] Host.reduce Host.reduceAdd transpose broadcastInDim in
set_option maxRecDepth 8192 in
set_option maxHeartbeats 1000000 in
/-- The scalar result is the tail of the prior table (the program's first constant), the counts of the renormalised
    array and its masked squared error against the labels. -/
theorem v42_eq (V : Valuation τ sig (Elt F)) :
    after ops V (main_v42 : DevRef τ sig)
      = stLoss (fun i => FloatOps.ofBits .f32 (lit0 (S19.rowMajor i)))
          (stSize (stWp (V (main_arg0 : DevRef τ sig)) (V (main_arg1 : DevRef τ sig))))
          (stSe (stWp (V (main_arg0 : DevRef τ sig)) (V (main_arg1 : DevRef τ sig))) (V (main_arg2 : DevRef τ sig))) := by
  after_results_simp
  rfl

/-- No operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- On every device, for any float values, from any memory with zero counters: every weakly fair execution of @main
    terminates with the scalar result at the tail of the stages, the array result at the renormalised array, and the
    arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
          = stLoss (fun i => FloatOps.ofBits .f32 (lit0 (S19.rowMajor i)))
              (stSize (stWp (m ((c.tc : Thread nD τ).loc main_arg0)) (m ((c.tc : Thread nD τ).loc main_arg1))))
              (stSe (stWp (m ((c.tc : Thread nD τ).loc main_arg0)) (m ((c.tc : Thread nD τ).loc main_arg1)))
                (m ((c.tc : Thread nD τ).loc main_arg2)))
      ∧ r.2.mem ((c.tc : Thread nD τ).loc main_v20)
          = stWp (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v42).trans (v42_eq _), (h c main_v20).trans (v20_eq _),
      (h c main_arg0).trans (arg0_eq _), (h c main_arg1).trans (arg1_eq _), (h c main_arg2).trans (arg2_eq _)⟩)
    (run_all m ρ)

end Cert.ReferenceIdeal.RefRun

end
-- ==== Proof.RefValue.lean ====
/-
  The reference program, run and read: every weakly fair execution of its @main terminates with the array result
  at the renormalised softmax of the arguments, index by index, and the scalar result at the loss of the per-class
  counts and the summed squared error of the whole array; the arguments are left as they were.

  The run leaves the two results at a composition of array stages of the arguments. Each stage is read here at an
  index over the extended reals: a repetition along the class axis forgets the class coordinate; the class-axis
  sum at pixel (b, h, w) is the sum over the nineteen entries (b, k, h, w), the zero word adding nothing; the
  class-axis maximum is the fold of `max` from −∞ over those entries, which one more maximum with −∞ leaves
  unchanged because a fold of `max` is at least its starting value. Composed, the array stage at (b, k, h, w) is the
  pixel's reweighted, renormalised softmax at class k. The comparison bits, read unsigned by the program and
  widened and read signed by the specification, are 0 or 1 either way, so the count stage at class k is the
  threefold sum of the indicator over the entries (b, k, h, w), and the transposed comparison of the labels with
  the class numbers is the one-hot array; the masked, class-summed squared error summed over every pixel is then the
  specification's, and the scalar tail is the specification's tail operation for operation.
-/
import proofs.«123401_j48180943127204_2_alg».proof.Proof.Gen.ReferenceIdeal
import proofs.«123401_j48180943127204_2_alg».proof.Proof.RefRun
import proofs.«123401_j48180943127204_2_alg».proof.Proof.Spec
import proofs.«123401_j48180943127204_2_alg».proof.Proof.LibIdxSums
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx Cert.Calib Cert.ReferenceIdeal.RefRun Cert.Lib.IdxSums

/-! ## Layout stages at an index -/

/-- Repeating along the class axis forgets the class coordinate. -/
theorem overClasses_apply {α : Type} (v : S2x512x1024.Idx → α) (b : Fin 2) (k : Fin 19) (h : Fin 512) (w : Fin 1024) :
    overClasses v (ix4 b k h w) = v (ix3 b h w) :=
  (broadcastInDim_apply _ _ _ (ix4 b k h w) (ix4 b (0 : Fin 1) h w)
      (fun a => match a with | ⟨0, _⟩ => rfl | ⟨1, _⟩ => rfl | ⟨2, _⟩ => rfl | ⟨3, _⟩ => rfl)).trans
    (broadcastInDim_apply _ _ v (ix4 b (0 : Fin 1) h w) (ix3 b h w)
      (fun a => match a with | ⟨0, _⟩ => rfl | ⟨1, _⟩ => rfl | ⟨2, _⟩ => rfl))

/-- The weights broadcast over batch, rows and columns read the weight of the class. -/
theorem wtAll_apply {α : Type} (wt : S19.Idx → α) (b : Fin 2) (k : Fin 19) (h : Fin 512) (w : Fin 1024) :
    broadcastInDim S2x19x512x1024 ![0, 1, 2, 3] bcast_S1x19x1x1_S2x19x512x1024_0_1_2_3
      (broadcastInDim S1x19x1x1 ![1] bcast_S19_S1x19x1x1_1 wt) (ix4 b k h w) = wt (ix1 k) :=
  (broadcastInDim_apply _ _ _ (ix4 b k h w) (ix4 (0 : Fin 1) k (0 : Fin 1) (0 : Fin 1))
      (fun a => match a with | ⟨0, _⟩ => rfl | ⟨1, _⟩ => rfl | ⟨2, _⟩ => rfl | ⟨3, _⟩ => rfl)).trans
    (broadcastInDim_apply _ _ wt (ix4 (0 : Fin 1) k (0 : Fin 1) (0 : Fin 1)) (ix1 k)
      (fun a => match a with | ⟨0, _⟩ => rfl))

/-- The class-axis reduction fact, in the form that names the inserted index. -/
theorem redClasses : S2x19x512x1024.Reduces [1] S2x512x1024 := by decide

/-- Inserting class `k` into pixel (b, h, w) gives the index (b, k, h, w). -/
theorem lift_classes (b : Fin 2) (h : Fin 512) (w : Fin 1024) (k : Fin 19) :
    redClasses.lift (ix3 b h w) k = ix4 b k h w :=
  funext fun a => Fin.ext (match a with | ⟨0, _⟩ => rfl | ⟨1, _⟩ => rfl | ⟨2, _⟩ => rfl | ⟨3, _⟩ => rfl)

/-- The sum over the classes at a pixel. -/
theorem sumClasses_apply (v : FVec Ideal S2x19x512x1024 .f32) (b : Fin 2) (h : Fin 512) (w : Fin 1024) :
    sumClasses v (ix3 b h w) = ∑ k : Fin 19, v (ix4 b k h w) := by
  refine (Ideal.hostReduceAdd_single reducesTo_S2x19x512x1024_S2x512x1024_d1 redClasses v _ (ix3 b h w)).trans ?_
  rw [constant_apply, Ideal.ofBits_zero_f32, zero_add]
  exact Finset.sum_congr rfl fun k _ => congrArg v (lift_classes b h w k)

/-- The largest score at a pixel: the fold from −∞, unchanged by one more maximum with −∞. -/
theorem maxClasses_apply (x : FVec Ideal S2x19x512x1024 .f32) (b : Fin 2) (h : Fin 512) (w : Fin 1024) :
    maxClasses x (ix3 b h w) = colMax (fun k => x (ix4 b k h w)) := by
  have e : Host.reduce FloatOps.maximumf x (constant (F := Ideal) S_ .f32 0xFF800000#32)
        reducesTo_S2x19x512x1024_S2x512x1024_d1 h_S_ (ix3 b h w) = colMax (fun k => x (ix4 b k h w)) := by
    refine (Host.reduce_eq_fold_single FloatOps.maximumf x _ reducesTo_S2x19x512x1024_S2x512x1024_d1 redClasses h_S_
      (ix3 b h w)).trans ?_
    unfold colMax
    exact Finset.fold_congr fun k _ => congrArg x (lift_classes b h w k)
  unfold maxClasses
  rw [maximumf_apply, e]
  exact max_eq_right ((Finset.le_fold_max _).2 (Or.inl (le_refl _)))

/-! ## The renormalised softmax at an index -/

/-- exp (score − the pixel's largest score), as the specification's column has it. -/
theorem stExp_apply (x : FVec Ideal S2x19x512x1024 .f32) (b : Fin 2) (k : Fin 19) (h : Fin 512) (w : Fin 1024) :
    stExp x (ix4 b k h w) = expCol (fun k' => x (ix4 b k' h w)) k := by
  unfold stExp expCol
  show Ideal.exp (x (ix4 b k h w) - overClasses (maxClasses x) (ix4 b k h w)) = _
  rw [overClasses_apply, maxClasses_apply]

/-- The softmax stage at an index is the column's softmax at the class. -/
theorem stSoft_apply (x : FVec Ideal S2x19x512x1024 .f32) (b : Fin 2) (k : Fin 19) (h : Fin 512) (w : Fin 1024) :
    stSoft x (ix4 b k h w) = softCol (fun k' => x (ix4 b k' h w)) k := by
  unfold stSoft softCol
  show Ideal.div (stExp x (ix4 b k h w)) (overClasses (sumClasses (stExp x)) (ix4 b k h w)) = _
  rw [overClasses_apply, sumClasses_apply]
  simp only [stExp_apply]

/-- The reweighted stage at an index: the class's weight times the softmax. -/
theorem stW_apply (x : FVec Ideal S2x19x512x1024 .f32) (wt : FVec Ideal S19 .f32) (b : Fin 2) (k : Fin 19) (h : Fin 512)
    (w : Fin 1024) :
    stW x wt (ix4 b k h w) = wCol (fun k' => x (ix4 b k' h w)) (fun k' => wt (ix1 k')) k := by
  unfold stW wCol
  rw [mulf_apply, wtAll_apply, stSoft_apply]

/-- The renormalised stage at an index is the specification's value at (b, k, h, w). -/
theorem stWp_apply (x : FVec Ideal S2x19x512x1024 .f32) (wt : FVec Ideal S19 .f32) (b : Fin 2) (k : Fin 19) (h : Fin 512)
    (w : Fin 1024) : stWp x wt (ix4 b k h w) = wpAt x wt b k h w := by
  unfold stWp wpAt wpCol
  show Ideal.div (stW x wt (ix4 b k h w)) (overClasses (sumClasses (stW x wt)) (ix4 b k h w)) = _
  rw [overClasses_apply, sumClasses_apply]
  simp only [stW_apply]

/-- The array stage is the specification's array. -/
theorem stWp_eq (x : FVec Ideal S2x19x512x1024 .f32) (wt : FVec Ideal S19 .f32) : stWp x wt = wpArr x wt :=
  funext fun i => (congrArg (stWp x wt) (eq_ix4 i)).trans (stWp_apply x wt (i 0) (i 1) (i 2) (i 3))

/-! ## The counts -/

/-- A one-bit word read unsigned is the same bit widened to thirty-two bits and read signed: 0 or 1 either way. -/
theorem bit01 (c : BitVec 1) : ((c.toNat : ℝ) : EReal) = (((c.setWidth 32).toInt : ℝ) : EReal) := by
  rcases BitVec.eq_zero_or_eq_one c with h | h <;> subst h
  · have h1 : (0#1).toNat = 0 := by decide
    have h2 : ((0#1).setWidth 32).toInt = 0 := by decide
    rw [h1, h2]; simp
  · have h1 : (1#1).toNat = 1 := by decide
    have h2 : ((1#1).setWidth 32).toInt = 1 := by decide
    rw [h1, h2]; simp

/-- The count stage at class `k`: how many entries (b, k, h, w) exceed the threshold. -/
theorem stSize_apply (p : FVec Ideal S2x19x512x1024 .f32) (k : Fin 19) :
    stSize p (ix1 k) = ∑ b : Fin 2, ∑ h : Fin 512, ∑ w : Fin 1024, ind (p (ix4 b k h w)) := by
  refine (hostSum_023 reducesTo_S2x19x512x1024_S19_d0_2_3 _ _ k).trans ?_
  rw [constant_apply, Ideal.ofBits_zero_f32, zero_add]
  refine Finset.sum_congr rfl fun b _ => Finset.sum_congr rfl fun h _ => Finset.sum_congr rfl fun w _ => ?_
  show (((Ideal.cmp .ogt (p (ix4 b k h w)) thr).toNat : ℝ) : EReal) = _
  exact bit01 _

/-- The count stage of the specification's array is the specification's counts. -/
theorem stSize_eq (x : FVec Ideal S2x19x512x1024 .f32) (wt : FVec Ideal S19 .f32) :
    stSize (F := Ideal) (wpArr x wt) = sizeArr x wt :=
  funext fun j => (congrArg (stSize (F := Ideal) (wpArr x wt)) (eq_ix1 j)).trans (stSize_apply (wpArr x wt) (j 0))

/-! ## The one-hot array and the squared error -/

/-- The labels with a trailing unit axis, repeated over the classes, read the pixel's label. -/
theorem labAll_apply {α : Type} (lab : S2x512x1024.Idx → α) (b : Fin 2) (h : Fin 512) (w : Fin 1024) (k : Fin 19) :
    broadcastInDim S2x512x1024x19 ![0, 1, 2, 3] bcast_S2x512x1024x1_S2x512x1024x19_0_1_2_3
      (broadcastInDim S2x512x1024x1 ![0, 1, 2] bcast_S2x512x1024_S2x512x1024x1_0_1_2 lab) (ix4 b h w k) = lab (ix3 b h w) :=
  (broadcastInDim_apply _ _ _ (ix4 b h w k) (ix4 b h w (0 : Fin 1))
      (fun a => match a with | ⟨0, _⟩ => rfl | ⟨1, _⟩ => rfl | ⟨2, _⟩ => rfl | ⟨3, _⟩ => rfl)).trans
    (broadcastInDim_apply _ _ lab (ix4 b h w (0 : Fin 1)) (ix3 b h w)
      (fun a => match a with | ⟨0, _⟩ => rfl | ⟨1, _⟩ => rfl | ⟨2, _⟩ => rfl))

/-- The class numbers repeated over the pixels read the class. -/
theorem iotaAll_apply (b : Fin 2) (h : Fin 512) (w : Fin 1024) (k : Fin 19) :
    broadcastInDim S2x512x1024x19 ![0, 1, 2, 3] bcast_S1x1x1x19_S2x512x1024x19_0_1_2_3 (iotaInDim S1x1x1x19 32 3)
      (ix4 b h w k) = BitVec.ofNat 32 k.val :=
  broadcastInDim_apply _ _ _ (ix4 b h w k) (ix4 (0 : Fin 1) (0 : Fin 1) (0 : Fin 1) k)
    (fun a => match a with | ⟨0, _⟩ => rfl | ⟨1, _⟩ => rfl | ⟨2, _⟩ => rfl | ⟨3, _⟩ => rfl)

/-- The one-hot stage at (b, k, h, w): 1 when the pixel's label is `k`. The transposition reads the
    [2, 512, 1024, 19] comparison at (b, h, w, k). -/
theorem stHot_apply (lab : IVec S2x512x1024 32) (b : Fin 2) (k : Fin 19) (h : Fin 512) (w : Fin 1024) :
    stHot (F := Ideal) lab (ix4 b k h w) = oneHot (lab (ix3 b h w)) k := by
  unfold stHot
  refine (transpose_apply [0, 3, 1, 2] _ transposes_S2x512x1024x19_S2x19x512x1024_0_3_1_2 (ix4 b k h w) (ix4 b h w k)
    (fun a => match a with | ⟨0, _⟩ => rfl | ⟨1, _⟩ => rfl | ⟨2, _⟩ => rfl | ⟨3, _⟩ => rfl)).trans ?_
  show (((IntOp.cmpi .eq
      (broadcastInDim S2x512x1024x19 ![0, 1, 2, 3] bcast_S2x512x1024x1_S2x512x1024x19_0_1_2_3
        (broadcastInDim S2x512x1024x1 ![0, 1, 2] bcast_S2x512x1024_S2x512x1024x1_0_1_2 lab) (ix4 b h w k))
      (broadcastInDim S2x512x1024x19 ![0, 1, 2, 3] bcast_S1x1x1x19_S2x512x1024x19_0_1_2_3 (iotaInDim S1x1x1x19 32 3)
        (ix4 b h w k))).toNat : ℝ) : EReal) = _
  rw [labAll_apply, iotaAll_apply]
  exact bit01 _

/-- The error stage: the masked squared error of every pixel, summed. -/
theorem stSe_apply (p : FVec Ideal S2x19x512x1024 .f32) (lab : IVec S2x512x1024 32) (j : S_.Idx) :
    stSe p lab j
      = ∑ b : Fin 2, ∑ h : Fin 512, ∑ w : Fin 1024, sePix (fun k => p (ix4 b k h w)) (lab (ix3 b h w)) := by
  refine (hostSum_all3 reducesTo_S2x512x1024_S_d0_1_2 _ _ j).trans ?_
  rw [constant_apply, Ideal.ofBits_zero_f32, zero_add]
  refine Finset.sum_congr rfl fun b _ => Finset.sum_congr rfl fun h _ => Finset.sum_congr rfl fun w _ => ?_
  show Scalar.select (IntOp.cmpi .eq (lab (ix3 b h w)) 255#32) zero32
      (sumClasses (mulf (subf p (stHot lab)) (subf p (stHot lab))) (ix3 b h w)) = _
  rw [sumClasses_apply]
  unfold sePix
  simp only [mulf_apply, subf_apply, stHot_apply]

/-- The error stage of the specification's array is the specification's summed squared error. -/
theorem stSe_eq (x : FVec Ideal S2x19x512x1024 .f32) (wt : FVec Ideal S19 .f32) (lab : IVec S2x512x1024 32) :
    stSe (F := Ideal) (wpArr x wt) lab = seArr x wt lab :=
  funext fun j => stSe_apply (wpArr x wt) lab j

/-! ## The tail and the run -/

/-- The tail stage is the specification's tail, operation for operation. -/
theorem stLoss_eq (pr size : FVec Ideal S19 .f32) (se : FVec Ideal S_ .f32) :
    stLoss pr size se = lossTail Facts₀.reducesTo_S19_S_d0 Facts₀.h_S_ Facts₀.bcast_S_S19 pr size se := rfl

/-- The prior table as the program's constant holds it. -/
def prior : FVec Ideal S19 .f32 := fun i => FloatOps.ofBits .f32 (lit0 (S19.rowMajor i))

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42)
          = lossTail Facts₀.reducesTo_S19_S_d0 Facts₀.h_S_ Facts₀.bcast_S_S19 prior
              (sizeArr (m ((c.tc : Thread nD τ).loc main_arg0)) (m ((c.tc : Thread nD τ).loc main_arg1)))
              (seArr (m ((c.tc : Thread nD τ).loc main_arg0)) (m ((c.tc : Thread nD τ).loc main_arg1))
                (m ((c.tc : Thread nD τ).loc main_arg2)))
      ∧ r.2.mem ((c.tc : Thread nD τ).loc main_v20)
          = wpArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => by
    obtain ⟨h42, h20, h0, h1, h2⟩ := h c
    refine ⟨h42.trans ?_, h20.trans ?_, h0, h1, h2⟩
    · rw [stWp_eq, stSize_eq, stSe_eq]
      exact stLoss_eq _ _ _
    · exact stWp_eq _ _) (RefRun.run (F := Ideal) m ρ)

end Cert.ReferenceIdeal.RefValue

end
-- ==== Proof.lean ====
/-
  The certificate's five claims.

  Both idealized programs compute, over the extended reals, the same two results from the score array `x`, the class
  weights `wt` and the label array: the array of renormalised reweighted softmax values (per pixel: with `e = exp (x − max x)`
  over the nineteen classes, `p = e / ∑ e`, `q = wt · p`, the result is `q / ∑ q`), and the scalar loss
  ∑ₖ (sizeₖ / ∑ size − priorₖ / ∑ prior)² + 0.05 · (se / 2²⁰), where `sizeₖ` counts the pixels whose class-`k` value exceeds
  0.9 and `se` sums, over the pixels not labelled 255, the squared distance of the pixel's nineteen values from the one-hot
  column of its label. The kernel takes the array in thirty-two tiles of sixteen rows and leaves per-tile partial counts and
  errors that the host then sums; the reference sums over the whole array at once. The two agree because a sum over the
  rows is the sum over the tiles of the sums over a tile's rows and because finite sums of extended reals commute —
  no cancellation, no distributivity, so the precondition is never opened.

  The frames of the two kernel programs are the generated ones; the reference's frame is its run with the results
  dropped; the idealization rewrote nothing, so `preserves` is `True`.
-/
import proofs.«123401_j48180943127204_2_alg».proof.Defs
import proofs.«123401_j48180943127204_2_alg».proof.Proof.Gen.Kernel
import proofs.«123401_j48180943127204_2_alg».proof.Proof.Gen.Kernel.Skeleton
import proofs.«123401_j48180943127204_2_alg».proof.Proof.Gen.Kernel.Launch
import proofs.«123401_j48180943127204_2_alg».proof.Proof.Gen.Kernel.Points
import proofs.«123401_j48180943127204_2_alg».proof.Proof.Gen.Kernel.Frame
import proofs.«123401_j48180943127204_2_alg».proof.Proof.Gen.KernelIdeal
import proofs.«123401_j48180943127204_2_alg».proof.Proof.Gen.KernelIdeal.Skeleton
import proofs.«123401_j48180943127204_2_alg».proof.Proof.Gen.KernelIdeal.Launch
import proofs.«123401_j48180943127204_2_alg».proof.Proof.Gen.KernelIdeal.Points
import proofs.«123401_j48180943127204_2_alg».proof.Proof.Gen.KernelIdeal.Frame
import proofs.«123401_j48180943127204_2_alg».proof.Proof.Gen.ReferenceIdeal
import proofs.«123401_j48180943127204_2_alg».proof.Proof.Gen.Pre_finite_inputs
import proofs.«123401_j48180943127204_2_alg».proof.Proof.Spec
import proofs.«123401_j48180943127204_2_alg».proof.Proof.KernelValue
import proofs.«123401_j48180943127204_2_alg».proof.Proof.RefValue
import Idealize.ShloMosaic.Adequacy
import Idealize.ShloMosaic.Init

noncomputable section

namespace Cert.Proof

open Idealize.ShloMosaic Idealize.SL.Sem Cert.Calib

theorem frame_k : Cert.frame_Kernel := fun m ρ _ => Cert.Kernel.Gen.frame m ρ

theorem frame_ki : Cert.frame_KernelIdeal := fun m ρ _ => Cert.KernelIdeal.Gen.frame m ρ

/-- The reference's frame: its run, with the results dropped. -/
theorem frame_ri : Cert.frame_ReferenceIdeal := fun m ρ _ =>
  (θ_run Cert.ReferenceIdeal.defs _ _).mono (fun _ h c => (h c).2.2) (Cert.ReferenceIdeal.RefValue.run m ρ)

/-- The idealization rewrote no operation. -/
theorem preserves : Cert.preserves_Kernel_KernelIdeal := trivial

/-- The two programs hold the same prior table, word for word. -/
theorem lit_eq : Cert.ReferenceIdeal.lit0 = Cert.KernelIdeal.lit0 := funext fun x => by fin_cases x <;> rfl

theorem prior_eq : Cert.ReferenceIdeal.RefValue.prior = Cert.KernelIdeal.KValue.prior := by
  unfold Cert.ReferenceIdeal.RefValue.prior Cert.KernelIdeal.KValue.prior
  rw [lit_eq]

/-- Both runs end with the scalar at the loss of the whole array's counts and squared error and the array at the
    renormalised softmax, of arguments that agree. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ?_) (Cert.ReferenceIdeal.RefValue.run m' ρ')
  obtain ⟨h1, h2, h3⟩ := h c
  refine ⟨h1.trans ?_, h2.trans ?_, h3⟩
  · rw [(hagree c).1, (hagree c).2.1, (hagree c).2.2, prior_eq]
  · rw [(hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
